-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x112x112 : Shape := ⟨4, ![16, 256, 112, 112]⟩
abbrev S256x16 : Shape := ⟨2, ![256, 16]⟩
abbrev S1x16 : Shape := ⟨2, ![1, 16]⟩
abbrev S16x8 : Shape := ⟨2, ![16, 8]⟩
abbrev S1x8 : Shape := ⟨2, ![1, 8]⟩
abbrev S_ : Shape := ⟨0, ![]⟩

class Facts : Prop where
  bcast_S_S16x256x112x112 : S_.BroadcastsInDim S16x256x112x112 (![] : Fin 0 → Fin S16x256x112x112.rank)
  reducesTo_S16x256x112x112_S_d0_1_2_3 : S16x256x112x112.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S1x16 : S_.BroadcastsInDim S1x16 (![] : Fin 0 → Fin S1x16.rank)
  reducesTo_S1x16_S_d0_1 : S1x16.ReducesTo [0, 1] S_
  bcast_S_S16x8 : S_.BroadcastsInDim S16x8 (![] : Fin 0 → Fin S16x8.rank)
  reducesTo_S16x8_S_d0_1 : S16x8.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  main_v23

def fn {F : FTy → Type} [FloatOps F] (main_arg0 : FVec F S16x256x112x112 .f32) (main_arg1 : FVec F S256x16 .f32) (main_arg2 : FVec F S1x16 .f32) (main_arg3 : FVec F S16x8 .f32) (main_arg4 : FVec F S1x8 .f32) : IVec S_ 1 :=
  let main_v0 : FVec F S16x256x112x112 .f32 := Host.absf main_arg0
  let main_cst : FVec F S_ .f32 := constant S_ .f32 0x7F800000#32
  let main_v1 : FVec F S16x256x112x112 .f32 := broadcastInDim S16x256x112x112 ![] bcast_S_S16x256x112x112 main_cst
  let main_v2 : IVec S16x256x112x112 1 := cmpf .olt main_v0 main_v1
  let main_c : IVec S_ 1 := constantI S_ 1 1#1
  let main_v3 : IVec S_ 1 := (fun x v => Host.reduce IntOp.andi x v reducesTo_S16x256x112x112_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_v13 main_v16
-- ==== Kernel.lean ====
abbrev S16x256x112x112 : Shape := ⟨4, ![16, 256, 112, 112]⟩
abbrev S256x16 : Shape := ⟨2, ![256, 16]⟩
abbrev S1x16 : Shape := ⟨2, ![1, 16]⟩
abbrev S16x8 : Shape := ⟨2, ![16, 8]⟩
abbrev S1x8 : Shape := ⟨2, ![1, 8]⟩
abbrev S16x112x112x256 : Shape := ⟨4, ![16, 112, 112, 256]⟩
abbrev S16x1x8 : Shape := ⟨3, ![16, 1, 8]⟩
abbrev S1x112x112x256 : Shape := ⟨4, ![1, 112, 112, 256]⟩
abbrev S1x1x8 : Shape := ⟨3, ![1, 1, 8]⟩
abbrev S112x112x256 : Shape := ⟨3, ![112, 112, 256]⟩
abbrev S112x256 : Shape := ⟨2, ![112, 256]⟩
abbrev S256 : Shape := ⟨1, ![256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256x112x112, .f32⟩
  | .hbm, ⟨1, _⟩ => ⟨S256x16, .f32⟩
  | .hbm, ⟨2, _⟩ => ⟨S1x16, .f32⟩
  | .hbm, ⟨3, _⟩ => ⟨S16x8, .f32⟩
  | .hbm, ⟨4, _⟩ => ⟨S1x8, .f32⟩
  | .hbm, ⟨5, _⟩ => ⟨S16x112x112x256, .f32⟩
  | .hbm, ⟨6, _⟩ => ⟨S16x1x8, .f32⟩
  | .hbm, ⟨7, _⟩ => ⟨S16x8, .f32⟩
  | .local _ .vmem, ⟨0, _⟩ => ⟨S1x112x112x256, .f32⟩
  | .local _ .vmem, ⟨1, _⟩ => ⟨S1x112x112x256, .f32⟩
  | .local _ .vmem, ⟨2, _⟩ => ⟨S256x16, .f32⟩
  | .local _ .vmem, ⟨3, _⟩ => ⟨S1x16, .f32⟩
  | .local _ .vmem, ⟨4, _⟩ => ⟨S16x8, .f32⟩
  | .local _ .vmem, ⟨5, _⟩ => ⟨S1x8, .f32⟩
  | .local _ .vmem, ⟨6, _⟩ => ⟨S1x1x8, .f32⟩
  | .local _ .vmem, ⟨7, _⟩ => ⟨S1x1x8, .f32⟩
  | _, _ => ⟨S16x256x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x112x112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16x256x112x112_S16x112x112x256_0_2_3_1 : S16x256x112x112.Transposes [0, 2, 3, 1] S16x112x112x256
  inb_S1x112x112x256_S1x112x112x256_0_0_0_0 : ∀ a, (![0, 0, 0, 0] : Fin 4 → Nat) a + S1x112x112x256.size a ≤ S1x112x112x256.size a
  h_S1x112x112x256 : 0 < S1x112x112x256.numel
  shapeCasts_S1x112x112x256_S112x112x256 : S1x112x112x256.ShapeCasts S112x112x256
  reduces_S112x112x256_S112x256 : S112x112x256.Reduces [0] S112x256
  reduces_S112x256_S256 : S112x256.Reduces [0] S256
  shapeCasts_S256_S1x256 : S256.ShapeCasts S1x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  shapeCasts_S16x1x8_S16x8 : S16x1x8.ShapeCasts S16x8
  dot_S1x256_S256x16_S1x16_1_0_0_1_n_n_wf : DotDims.WF S1x256 S256x16 S1x16 [1] [0] [0] [1] [] []
  dot_S1x16_S16x8_S1x8_1_0_0_1_n_n_wf : DotDims.WF S1x16 S16x8 S1x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x112x256.size a ≤ S16x112x112x256.size a
  hwx0_0 : ∀ i : grid0.Coords, EltTy.bits .f32 = 32 ∨ (Rect.block (s := S16x112x112x256) S1x112x112x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8.size a ≤ S16x1x8.size a
  hwx0_5 : ∀ i : grid0.Coords, EltTy.bits .f32 = 32 ∨ (Rect.block (s := S16x1x8) S1x1x8.size (cc0_transform_5 i) (hinb0_5 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x8_S1x8_1_0_0_1_n_n : DotDims S1x16 S16x8 S1x8 where
  lhsContracting := [1]
  rhsContracting := [0]
  lhsNonContracting := [0]
  rhsNonContracting := [1]
  lhsBatch := []
  rhsBatch := []
  wf := dot_S1x16_S16x8_S1x8_1_0_0_1_n_n_wf

abbrev win0_0 : Pipeline.Window sig grid0 :=
  Pipeline.Window.ofSpec (Memref.whole main_v0) S1x112x112x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x112x112 : Shape := ⟨4, ![16, 256, 112, 112]⟩
abbrev S256x16 : Shape := ⟨2, ![256, 16]⟩
abbrev S1x16 : Shape := ⟨2, ![1, 16]⟩
abbrev S16x8 : Shape := ⟨2, ![16, 8]⟩
abbrev S1x8 : Shape := ⟨2, ![1, 8]⟩
abbrev S16x256x12544 : Shape := ⟨3, ![16, 256, 12544]⟩
abbrev S16x256 : Shape := ⟨2, ![16, 256]⟩
abbrev S8x128x4096 : Shape := ⟨3, ![8, 128, 4096]⟩
abbrev S8x128 : Shape := ⟨2, ![8, 128]⟩
abbrev S8x128x128 : Shape := ⟨3, ![8, 128, 128]⟩
abbrev S16x16 : Shape := ⟨2, ![16, 16]⟩

abbrev nBuf : Space → Nat
  | .hbm => 8
  | .vmem => 11
  | .smem => 0
  | _ => 0

abbrev bufTy : (tb : Table) → Fin (tcTables nBuf tb) → BufTy
  | .hbm, ⟨0, _⟩ => ⟨S16x256x112x112, .f32⟩
  | .hbm, ⟨1, _⟩ => ⟨S256x16, .f32⟩
  | .hbm, ⟨2, _⟩ => ⟨S1x16, .f32⟩
  | .hbm, ⟨3, _⟩ => ⟨S16x8, .f32⟩
  | .hbm, ⟨4, _⟩ => ⟨S1x8, .f32⟩
  | .hbm, ⟨5, _⟩ => ⟨S16x256x12544, .f32⟩
  | .hbm, ⟨6, _⟩ => ⟨S16x256, .f32⟩
  | .hbm, ⟨7, _⟩ => ⟨S16x8, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S8x128x128, .f32⟩
  | .local _ .vmem, ⟨5, _⟩ => ⟨S16x256, .f32⟩
  | .local _ .vmem, ⟨6, _⟩ => ⟨S256x16, .f32⟩
  | .local _ .vmem, ⟨7, _⟩ => ⟨S1x16, .f32⟩
  | .local _ .vmem, ⟨8, _⟩ => ⟨S16x8, .f32⟩
  | .local _ .vmem, ⟨9, _⟩ => ⟨S1x8, .f32⟩
  | .local _ .vmem, ⟨10, _⟩ => ⟨S16x8, .f32⟩
  | _, _ => ⟨S16x256x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨3, ![2, 2, 4], ![false, false, false]⟩

def k0_cond4 (i : grid0.Coords) : BitVec 1 :=
  let arg2 : BitVec 32 := BitVec.ofNat 32 (i 2).val
  let c3_i32_4 : BitVec 32 := 3#32
  let v9 : BitVec 1 := Scalar.cmpi .eq arg2 c3_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

class Facts₀ : Prop where
  shapeCasts_S16x256x112x112_S16x256x12544 : S16x256x112x112.ShapeCasts S16x256x12544
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  inb_S8x128x4096_S8x128x128_0_0_0 : ∀ a, (![0, 0, 0] : Fin 3 → Nat) a + S8x128x128.size a ≤ S8x128x4096.size a
  inb_S8x128x4096_S8x128x128_0_0_128 : ∀ a, (![0, 0, 128] : Fin 3 → Nat) a + S8x128x128.size a ≤ S8x128x4096.size a
  inb_S8x128x4096_S8x128x128_0_0_256 : ∀ a, (![0, 0, 256] : Fin 3 → Nat) a + S8x128x128.size a ≤ S8x128x4096.size a
  inb_S8x128x4096_S8x128x128_0_0_384 : ∀ a, (![0, 0, 384] : Fin 3 → Nat) a + S8x128x128.size a ≤ S8x128x4096.size a
  inb_S8x128x4096_S8x128x128_0_0_512 : ∀ a, (![0, 0, 512] : Fin 3 → Nat) a + S8x128x128.size a ≤ S8x128x4096.size a
  inb_S8x128x4096_S8x128x128_0_0_640 : ∀ a, (![0, 0, 640] : Fin 3 → Nat) a + S8x128x128.size a ≤ S8x128x4096.size a
  inb_S8x128x4096_S8x128x128_0_0_768 : ∀ a, (![0, 0, 768] : Fin 3 → Nat) a + S8x128x128.size a ≤ S8x128x4096.size a
  inb_S8x128x4096_S8x128x128_0_0_896 : ∀ a, (![0, 0, 896] : Fin 3 → Nat) a + S8x128x128.size a ≤ S8x128x4096.size a
  inb_S8x128x4096_S8x128x128_0_0_1024 : ∀ a, (![0, 0, 1024] : Fin 3 → Nat) a + S8x128x128.size a ≤ S8x128x4096.size a
  inb_S8x128x4096_S8x128x128_0_0_1152 : ∀ a, (![0, 0, 1152] : Fin 3 → Nat) a + S8x128x128.size a ≤ S8x128x4096.size a
  inb_S8x128x4096_S8x128x128_0_0_1280 : ∀ a, (![0, 0, 1280] : Fin 3 → Nat) a + S8x128x128.size a ≤ S8x128x4096.size a
  inb_S8x128x4096_S8x128x128_0_0_1408 : ∀ a, (![0, 0, 1408] : Fin 3 → Nat) a + S8x128x128.size a ≤ S8x128x4096.size a
  inb_S8x128x4096_S8x128x128_0_0_1536 : ∀ a, (![0, 0, 1536] : Fin 3 → Nat) a + S8x128x128.size a ≤ S8x128x4096.size a
  inb_S8x128x4096_S8x128x128_0_0_1664 : ∀ a, (![0, 0, 1664] : Fin 3 → Nat) a + S8x128x128.size a ≤ S8x128x4096.size a
  inb_S8x128x4096_S8x128x128_0_0_1792 : ∀ a, (![0, 0, 1792] : Fin 3 → Nat) a + S8x128x128.size a ≤ S8x128x4096.size a
  inb_S8x128x4096_S8x128x128_0_0_1920 : ∀ a, (![0, 0, 1920] : Fin 3 → Nat) a + S8x128x128.size a ≤ S8x128x4096.size a
  inb_S8x128x4096_S8x128x128_0_0_2048 : ∀ a, (![0, 0, 2048] : Fin 3 → Nat) a + S8x128x128.size a ≤ S8x128x4096.size a
  inb_S8x128x4096_S8x128x128_0_0_2176 : ∀ a, (![0, 0, 2176] : Fin 3 → Nat) a + S8x128x128.size a ≤ S8x128x4096.size a
  inb_S8x128x4096_S8x128x128_0_0_2304 : ∀ a, (![0, 0, 2304] : Fin 3 → Nat) a + S8x128x128.size a ≤ S8x128x4096.size a
  inb_S8x128x4096_S8x128x128_0_0_2432 : ∀ a, (![0, 0, 2432] : Fin 3 → Nat) a + S8x128x128.size a ≤ S8x128x4096.size a
  inb_S8x128x4096_S8x128x128_0_0_2560 : ∀ a, (![0, 0, 2560] : Fin 3 → Nat) a + S8x128x128.size a ≤ S8x128x4096.size a
  inb_S8x128x4096_S8x128x128_0_0_2688 : ∀ a, (![0, 0, 2688] : Fin 3 → Nat) a + S8x128x128.size a ≤ S8x128x4096.size a
  inb_S8x128x4096_S8x128x128_0_0_2816 : ∀ a, (![0, 0, 2816] : Fin 3 → Nat) a + S8x128x128.size a ≤ S8x128x4096.size a
  inb_S8x128x4096_S8x128x128_0_0_2944 : ∀ a, (![0, 0, 2944] : Fin 3 → Nat) a + S8x128x128.size a ≤ S8x128x4096.size a
  inb_S8x128x4096_S8x128x128_0_0_3072 : ∀ a, (![0, 0, 3072] : Fin 3 → Nat) a + S8x128x128.size a ≤ S8x128x4096.size a
  inb_S8x128x4096_S8x128x128_0_0_3200 : ∀ a, (![0, 0, 3200] : Fin 3 → Nat) a + S8x128x128.size a ≤ S8x128x4096.size a
  inb_S8x128x4096_S8x128x128_0_0_3328 : ∀ a, (![0, 0, 3328] : Fin 3 → Nat) a + S8x128x128.size a ≤ S8x128x4096.size a
  inb_S8x128x4096_S8x128x128_0_0_3456 : ∀ a, (![0, 0, 3456] : Fin 3 → Nat) a + S8x128x128.size a ≤ S8x128x4096.size a
  inb_S8x128x4096_S8x128x128_0_0_3584 : ∀ a, (![0, 0, 3584] : Fin 3 → Nat) a + S8x128x128.size a ≤ S8x128x4096.size a
  inb_S8x128x4096_S8x128x128_0_0_3712 : ∀ a, (![0, 0, 3712] : Fin 3 → Nat) a + S8x128x128.size a ≤ S8x128x4096.size a
  inb_S8x128x4096_S8x128x128_0_0_3840 : ∀ a, (![0, 0, 3840] : Fin 3 → Nat) a + S8x128x128.size a ≤ S8x128x4096.size a
  inb_S8x128x4096_S8x128x128_0_0_3968 : ∀ a, (![0, 0, 3968] : Fin 3 → Nat) a + S8x128x128.size a ≤ S8x128x4096.size a
  reduces_S8x128x128_S8x128 : S8x128x128.Reduces [2] S8x128
  inb_S8x128_S8x128_0_0 : ∀ a, (![0, 0] : Fin 2 → Nat) a + S8x128.size a ≤ S8x128.size a
  h_S8x128 : 0 < S8x128.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  broadcasts_S1x16_S16x16 : S1x16.Broadcasts S16x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  broadcasts_S1x8_S16x8 : S1x8.Broadcasts S16x8
  dot_S16x256_S256x16_S16x16_1_0_0_1_n_n_wf : DotDims.WF S16x256 S256x16 S16x16 [1] [0] [0] [1] [] []
  dot_S16x16_S16x8_S16x8_1_0_0_1_n_n_wf : DotDims.WF S16x16 S16x8 S16x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x128x4096.size a < S16x256x12544.size a
  hwx0_0 : ∀ i : grid0.Coords, EltTy.bits .f32 = 32 ∨ (Rect.unit (s := S16x256x12544) (fun a => cc0_transform_0 i a * S8x128x4096.size a) (fun a => (Pipeline.Clip.of (cc0_transform_0 i a) (S8x128x4096.size a) (S16x256x12544.size a)).extent (S8x128x4096.size a)) fun a => Pipeline.Clip.inb (Pipeline.Clip.ok_of (hstart0_0 i a))).WholeWords (EltTy.packing .f32)
  hwxs0_0 : ∀ i : grid0.Coords, EltTy.bits .f32 = 32 ∨ (Rect.unit (s := S8x128x4096) (fun _ => 0) (fun a => (Pipeline.Clip.of (cc0_transform_0 i a) (S8x128x4096.size a) (S16x256x12544.size a)).extent (S8x128x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x256.size a
  hwx0_1 : ∀ i : grid0.Coords, EltTy.bits .f32 = 32 ∨ (Rect.block (s := S16x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S16x256.size a
  hwx1_0 : ∀ i : grid1.Coords, EltTy.bits .f32 = 32 ∨ (Rect.block (s := S16x256) S16x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x16.size a ≤ S256x16.size a
  hwx1_1 : ∀ i : grid1.Coords, EltTy.bits .f32 = 32 ∨ (Rect.block (s := S256x16) S256x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x8.size a ≤ S16x8.size a
  hwx1_3 : ∀ i : grid1.Coords, EltTy.bits .f32 = 32 ∨ (Rect.block (s := S16x8) S16x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S16x8.size a ≤ S16x8.size a
  hwx1_5 : ∀ i : grid1.Coords, EltTy.bits .f32 = 32 ∨ (Rect.block (s := S16x8) S16x8.size (cc1_transform_5 i) (hinb1_5 i)).WholeWords (EltTy.packing .f32)

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf

abbrev win0_0 : Pipeline.Window sig grid0 :=
  Pipeline.Window.ofSpecClip (Memref.whole main_v0) S8x128x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond4 i == 1#1) | ⟨_ + 2, h⟩ => absurd h (Nat.not_lt.2 (Nat.le_add_left _ _))

abbrev win1_0 : Pipeline.Window sig grid1 :=
  Pipeline.Window.ofSpec (Memref.whole main_v1) S16x256.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S16x8.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.Spec.lean ====
/-
  The specification: the result [16, 8] as one function of the five argument arrays, over the extended reals.

  For batch row n and channel c the input is summed over its 112 x 112 spatial positions: `pooled`. The hidden
  pre-activation k of row n is the contraction of the pooled sums with column k of the first weight matrix, times
  the mean factor, plus the first bias: `hidden`. The result at (n, o) is 2 · logistic(∑ₖ max(hidden k, 0) · w2[k, o] + b2[o]) − 1: `head`.
  The float literals stay as the words the programs print: the same word denotes the same number on both sides.
-/
import Idealize.ShloMosaic.PureOps.Ideal.Laws
import Idealize.ShloMosaic.Lib.ValueIdx

noncomputable section

namespace Cert.Spec

open Idealize.ShloMosaic Idealize.ShloMosaic.ValueIdx

/-- The mean factor, as the word both programs multiply by reads at the ideal instance. -/
abbrev meanFactor : EReal := Ideal.ofBits .f32 0x38A72F05#32

/-- The input summed over its spatial positions. -/
def pooled (x : (⟨4, ![16, 256, 112, 112]⟩ : Shape).Idx → EReal) (n : Fin 16) (c : Fin 256) : EReal :=
  ∑ w : Fin 112, ∑ h : Fin 112, x (ix4 n c h w)

/-- The hidden layer's pre-activation. -/
def hidden (x : (⟨4, ![16, 256, 112, 112]⟩ : Shape).Idx → EReal) (w1 : (⟨2, ![256, 16]⟩ : Shape).Idx → EReal)
    (b1 : (⟨2, ![1, 16]⟩ : Shape).Idx → EReal) (n : Fin 16) (k : Fin 16) : EReal :=
  (∑ c : Fin 256, pooled x n c * w1 (ix2 c k)) * meanFactor + b1 (ix2 0 k)

/-- What follows the pre-activation: the rectifier, the second dense layer, and 2 · logistic − 1. -/
def head (pre : Fin 16 → EReal) (w2 : (⟨2, ![16, 8]⟩ : Shape).Idx → EReal) (b2 : (⟨2, ![1, 8]⟩ : Shape).Idx → EReal) (o : Fin 8) : EReal :=
  Ideal.ofBits .f32 0x40000000#32
      * Ideal.logistic ((∑ k : Fin 16, max (pre k) (Ideal.ofBits .f32 0x00000000#32) * w2 (ix2 k o)) + b2 (ix2 0 o))
    - Ideal.ofBits .f32 0x3F800000#32

/-- The result. -/
def G (x : (⟨4, ![16, 256, 112, 112]⟩ : Shape).Idx → EReal) (w1 : (⟨2, ![256, 16]⟩ : Shape).Idx → EReal)
    (b1 : (⟨2, ![1, 16]⟩ : Shape).Idx → EReal) (w2 : (⟨2, ![16, 8]⟩ : Shape).Idx → EReal) (b2 : (⟨2, ![1, 8]⟩ : Shape).Idx → EReal) :
    (⟨2, ![16, 8]⟩ : Shape).Idx → EReal :=
  fun j => head (hidden x w1 b1 (j 0)) w2 b2 (j 1)

end Cert.Spec

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KernelMath.lean ====
/-
  The kernel's body, read at an index at the ideal instance.

  The body reduces the point's [112, 112, 256] block over its two spatial axes, contracts the 256 sums with the
  first weight matrix, scales by the mean factor, adds the first bias, rectifies, contracts with the second weight
  matrix, adds the second bias and applies 2 · logistic − 1. Read at output o this is the specification's `head` over
  the pre-activations "(∑_c spatial sum c · w1[c, k]) · mean factor + b1[k]".
-/
import proofs.«161419_g2000504122983038_pallasbulk_1167_5_alg».proof.Proof.Gen.KernelIdeal.Skeleton
import proofs.«161419_g2000504122983038_pallasbulk_1167_5_alg».proof.Proof.Spec
import proofs.«161419_g2000504122983038_pallasbulk_1167_5_alg».proof.Proof.LibSplitContraction
import Idealize.ShloMosaic.Lib.ValueLayout
import Idealize.ShloMosaic.Lib.Pipeline.Value

set_option maxRecDepth 16384

noncomputable section

namespace Cert.KernelIdeal.KMath

open Cert.KernelIdeal Cert.KernelIdeal.Gen
open Idealize.ShloMosaic Idealize.ShloMosaic.ValueIdx

/-- The block summed over its two spatial axes, read at channel c: the double sum over the 112 x 112 positions. -/
theorem spatial_at (v0 : FVec Ideal S1x112x112x256 .f32) (h1 : S1x112x112x256.ShapeCasts S112x112x256)
    (hr1 : S112x112x256.Reduces [0] S112x256) (hr2 : S112x256.Reduces [0] S256) (hφ1 hφ2 : FKind.Formats .f32)
    (ha1 ha2 : (0x00000000#32 : BitVec 32) = 0x00000000#32) (c : Fin 256) :
    multiReduction .add [0] S256 (multiReduction .add [0] S112x256 (shapeCast S112x112x256 v0 h1) 0x00000000#32 hr1 hφ1 ha1)
        0x00000000#32 hr2 hφ2 ha2 (ix1 c)
      = ∑ w : Fin 112, ∑ h : Fin 112, v0 (ix4 (0 : Fin 1) h w c) :=
  (Ideal.multiReduction_add_single _ 0x00000000#32 hr2 hφ2 ha2 (ix1 c)).trans
    (Finset.sum_congr rfl fun w _ =>
      (congrArg (multiReduction .add [0] S112x256 (shapeCast S112x112x256 v0 h1) 0x00000000#32 hr1 hφ1 ha1)
          (show hr2.lift (ix1 c) w = ix2 w c from funext fun a => Fin.ext (by
            match a with
            | ⟨0, _⟩ => rfl
            | ⟨1, _⟩ => rfl))).trans
      ((Ideal.multiReduction_add_single _ 0x00000000#32 hr1 hφ1 ha1 (ix2 w c)).trans
        (Finset.sum_congr rfl fun h _ =>
          (congrArg (shapeCast S112x112x256 v0 h1)
              (show hr1.lift (ix2 w c) h = ix3 h w c from funext fun a => Fin.ext (by
                match a with
                | ⟨0, _⟩ => rfl
                | ⟨1, _⟩ => rfl
                | ⟨2, _⟩ => rfl))).trans
          (shapeCast_1abc_abc_apply v0 h1 h w c))))

/-- The hidden row: the 256 sums contracted with the first weight matrix, scaled, the bias added. -/
theorem hidden_at (v3 : FVec Ideal S256 .f32) (h4 : S256.ShapeCasts S1x256) (v5 : FVec Ideal S256x16 .f32) (v9 : FVec Ideal S1x16 .f32) (k : Fin 16) :
    addf (mulf (matmul dot_S1x256_S256x16_S1x16_1_0_0_1_n_n none (shapeCast S1x256 v3 h4) v5 (constant S1x16 .f32 0x00000000#32))
        (broadcast S1x16 (Scalar.ofBits .f32 0x38A72F05#32))) v9 (ix2 (0 : Fin 1) k)
      = (∑ c : Fin 256, v3 (ix1 c) * v5 (ix2 c k)) * Spec.meanFactor + v9 (ix2 (0 : Fin 1) k) := by
  simp only [addf_apply, mulf_apply, broadcast_apply, matmul]
  rw [Cert.Lib.SplitContraction.matmul_zero_at dot_S1x256_S256x16_S1x16_1_0_0_1_n_n rfl rfl (fun _ _ => rfl) (fun _ _ => rfl)
    (fun _ _ => rfl) (fun _ _ => rfl) none (shapeCast S1x256 v3 h4) v5 (0 : Fin 1) k]
  simp only [shapeCast_a_1a_apply v3 h4 (0 : Fin 1)]
  rfl

/-- The head: the rectifier, the second contraction, the bias, and 2 · logistic − 1. -/
theorem out_at (pre : FVec Ideal S1x16 .f32) (v13 : FVec Ideal S16x8 .f32) (v15 : FVec Ideal S1x8 .f32) (o : Fin 8) :
    subf (mulf (broadcast S1x8 (Scalar.ofBits .f32 0x40000000#32))
        (logistic (addf (matmul dot_S1x16_S16x8_S1x8_1_0_0_1_n_n none (maximumf pre (broadcast S1x16 (Scalar.ofBits .f32 0x00000000#32))) v13
          (constant S1x8 .f32 0x00000000#32)) v15)))
        (broadcast S1x8 (Scalar.ofBits .f32 0x3F800000#32)) (ix2 (0 : Fin 1) o)
      = Spec.head (fun k => pre (ix2 (0 : Fin 1) k)) v13 v15 o := by
  unfold Spec.head
  simp only [subf_apply, mulf_apply, addf_apply, broadcast_apply, logistic, matmul]
  rw [Cert.Lib.SplitContraction.matmul_zero_at dot_S1x16_S16x8_S1x8_1_0_0_1_n_n rfl rfl (fun _ _ => rfl) (fun _ _ => rfl)
    (fun _ _ => rfl) (fun _ _ => rfl) none _ v13 (0 : Fin 1) o]
  simp only [maximumf_apply, broadcast_apply]
  rfl

/-- The body's payload at output o. -/
theorem pay_at (v0 : Vec Ideal S1x112x112x256 .f32) (v5 : Vec Ideal S256x16 .f32) (v9 : Vec Ideal S1x16 .f32)
    (v13 : Vec Ideal S16x8 .f32) (v15 : Vec Ideal S1x8 .f32) (o : Fin 8) :
    k0_pay1 (F := Ideal) v0 v5 v9 v13 v15 (ix3 (0 : Fin 1) (0 : Fin 1) o)
      = Spec.head (fun k => (∑ c : Fin 256, (∑ w : Fin 112, ∑ h : Fin 112, v0 (ix4 (0 : Fin 1) h w c)) * v5 (ix2 c k)) * Spec.meanFactor
          + v9 (ix2 (0 : Fin 1) k)) v13 v15 o := by
  unfold k0_pay1
  refine (shapeCast_ab_1ab_apply _ _ (0 : Fin 1) (0 : Fin 1) o).trans ?_
  refine (out_at _ v13 v15 o).trans ?_
  refine congrArg (fun pre => Spec.head pre v13 v15 o) (funext fun k => ?_)
  refine (hidden_at _ _ v5 v9 k).trans ?_
  refine congrArg (fun z : EReal => z * Spec.meanFactor + v9 (ix2 (0 : Fin 1) k)) (Finset.sum_congr rfl fun c _ => ?_)
  exact congrArg (fun z : EReal => z * v5 (ix2 c k)) (spatial_at v0 _ _ _ _ _ _ _ c)

end Cert.KernelIdeal.KMath

end
-- ==== Proof.KernelValue.lean ====
/-
  The kernel's result array. Grid point t (one per batch row) stages row t of the transposed input, the four weight
  arrays whole, and writes back row t of the [16, 1, 8] output: the body's payload of row t. So the output array is one
  function of the arguments — at (n, 0, o) the specification at (n, o) — and the closing reshape to [16, 8] reads it at (n, o).
-/
import proofs.«161419_g2000504122983038_pallasbulk_1167_5_alg».proof.Proof.Gen.KernelIdeal.Frame
import proofs.«161419_g2000504122983038_pallasbulk_1167_5_alg».proof.Proof.KernelMath
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The output array [16, 1, 8] as one function of the five argument arrays. -/
def outArr (c : Dev nD) : S16x1x8.Idx → EReal := fun i =>
  Spec.G (m ((c : Thread nD τ).loc main_arg0)) (m ((c : Thread nD τ).loc main_arg1)) (m ((c : Thread nD τ).loc main_arg2))
    (m ((c : Thread nD τ).loc main_arg3)) (m ((c : Thread nD τ).loc main_arg4)) (ix2 (i 0) (i 2))

/-- The region finds the transposed input in its first window's array. -/
theorem V_main_v0 (c : Dev nD) :
    (V m c main_v0 : S16x112x112x256.Idx → EReal)
      = transpose S16x112x112x256 [0, 2, 3, 1] (m ((c : Thread nD τ).loc main_arg0)) transposes_S16x256x112x112_S16x112x112x256_0_2_3_1 := by
  show StableHlo.after hostOps0 (fun b => m (c, b)) (Proc.devRef .tc main_v0) = _
  after_results

/-- The transposed input at (n, h, w, ch) is the input at (n, ch, h, w). -/
theorem V_main_v0_apply (c : Dev nD) (n : Fin 16) (h w : Fin 112) (ch : Fin 256) :
    V m c main_v0 (ix4 n h w ch) = m ((c : Thread nD τ).loc main_arg0) (ix4 n ch h w) := by
  rw [show V m c main_v0 (ix4 n h w ch) = (V m c main_v0 : S16x112x112x256.Idx → EReal) (ix4 n h w ch) from rfl, V_main_v0]
  exact transpose_apply _ _ _ _ (ix4 n ch h w) fun b => by
    match b with
    | ⟨0, _⟩ => rfl
    | ⟨1, _⟩ => rfl
    | ⟨2, _⟩ => rfl
    | ⟨3, _⟩ => rfl

/-- The printed index maps, decided over the grid: the input's and the output's block move with the point along the
    batch axis, every other block index is zero. -/
theorem idx_facts : ∀ t : Fin cfg0.N, win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The input's block at point t, at (0, h, w, ch): the input at (t, ch, h, w). -/
theorem iblk0_apply (c : Dev nD) (t : Fin cfg0.N) (h w : Fin 112) (ch : Fin 256) :
    iblk m c 0 t (ix4 (0 : Fin 1) h w ch) = m ((c : Thread nD τ).loc main_arg0) (ix4 (⟨t.val, lt_of_lt_of_eq t.isLt N_0⟩ : Fin 16) ch h w) := by
  obtain ⟨e0, e1, e2, e3, -⟩ := idx_facts t
  refine Eq.trans ?_ (V_main_v0_apply m c ⟨t.val, lt_of_lt_of_eq t.isLt N_0⟩ h w ch)
  show V m c main_v0 (((cfg0.win 0).blk t).view.emb (ix4 (0 : Fin 1) h w ch)) = _
  refine congrArg (V m c main_v0) (funext fun a => Fin.ext ?_)
  match a with
  | ⟨0, _⟩ => show win0_0.index t (0 : Fin 4) * 1 + 1 * 0 = t.val; omega
  | ⟨1, _⟩ => show win0_0.index t (1 : Fin 4) * 112 + 1 * h.val = h.val; omega
  | ⟨2, _⟩ => show win0_0.index t (2 : Fin 4) * 112 + 1 * w.val = w.val; omega
  | ⟨3, _⟩ => show win0_0.index t (3 : Fin 4) * 256 + 1 * ch.val = ch.val; omega

/-- A weight array's block is the array (its one block, at index zero), read as launched. -/
theorem iblk1_apply (c : Dev nD) (t : Fin cfg0.N) (a : Fin 256) (b : Fin 16) :
    iblk m c 1 t (ix2 a b) = m ((c : Thread nD τ).loc main_arg1) (ix2 a b) := by
  obtain ⟨-, -, -, -, e0, e1, -⟩ := idx_facts t
  refine Eq.trans ?_ (congrFun (V_main_arg1 m c) (ix2 a b))
  show V m c main_arg1 (((cfg0.win 1).blk t).view.emb (ix2 a b)) = _
  refine congrArg (V m c main_arg1) (funext fun x => Fin.ext ?_)
  match x with
  | ⟨0, _⟩ => show win0_1.index t (0 : Fin 2) * 256 + 1 * a.val = a.val; omega
  | ⟨1, _⟩ => show win0_1.index t (1 : Fin 2) * 16 + 1 * b.val = b.val; omega
theorem iblk2_apply (c : Dev nD) (t : Fin cfg0.N) (a : Fin 1) (b : Fin 16) :
    iblk m c 2 t (ix2 a b) = m ((c : Thread nD τ).loc main_arg2) (ix2 a b) := by
  obtain ⟨-, -, -, -, -, -, e0, e1, -⟩ := idx_facts t
  refine Eq.trans ?_ (congrFun (V_main_arg2 m c) (ix2 a b))
  show V m c main_arg2 (((cfg0.win 2).blk t).view.emb (ix2 a b)) = _
  refine congrArg (V m c main_arg2) (funext fun x => Fin.ext ?_)
  match x with
  | ⟨0, _⟩ => show win0_2.index t (0 : Fin 2) * 1 + 1 * a.val = a.val; omega
  | ⟨1, _⟩ => show win0_2.index t (1 : Fin 2) * 16 + 1 * b.val = b.val; omega
theorem iblk3_apply (c : Dev nD) (t : Fin cfg0.N) (a : Fin 16) (b : Fin 8) :
    iblk m c 3 t (ix2 a b) = m ((c : Thread nD τ).loc main_arg3) (ix2 a b) := by
  obtain ⟨-, -, -, -, -, -, -, -, e0, e1, -⟩ := idx_facts t
  refine Eq.trans ?_ (congrFun (V_main_arg3 m c) (ix2 a b))
  show V m c main_arg3 (((cfg0.win 3).blk t).view.emb (ix2 a b)) = _
  refine congrArg (V m c main_arg3) (funext fun x => Fin.ext ?_)
  match x with
  | ⟨0, _⟩ => show win0_3.index t (0 : Fin 2) * 16 + 1 * a.val = a.val; omega
  | ⟨1, _⟩ => show win0_3.index t (1 : Fin 2) * 8 + 1 * b.val = b.val; omega
theorem iblk4_apply (c : Dev nD) (t : Fin cfg0.N) (a : Fin 1) (b : Fin 8) :
    iblk m c 4 t (ix2 a b) = m ((c : Thread nD τ).loc main_arg4) (ix2 a b) := by
  obtain ⟨-, -, -, -, -, -, -, -, -, -, e0, e1, -⟩ := idx_facts t
  refine Eq.trans ?_ (congrFun (V_main_arg4 m c) (ix2 a b))
  show V m c main_arg4 (((cfg0.win 4).blk t).view.emb (ix2 a b)) = _
  refine congrArg (V m c main_arg4) (funext fun x => Fin.ext ?_)
  match x with
  | ⟨0, _⟩ => show win0_4.index t (0 : Fin 2) * 1 + 1 * a.val = a.val; omega
  | ⟨1, _⟩ => show win0_4.index t (1 : Fin 2) * 8 + 1 * b.val = b.val; omega

/-- WHAT POINT t WRITES BACK is block t of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero hz3]
  simp only [View.ld_unit_zero (S := S1x112x112x256) hz4, View.ld_unit_zero (S := S256x16) hz2, View.ld_unit_zero (S := S1x16) hz2,
    View.ld_unit_zero (S := S16x8) hz2, View.ld_unit_zero (S := S1x8) hz2]
  obtain ⟨-, -, -, -, -, -, -, -, -, -, -, -, e0, e1, e2⟩ := idx_facts t
  funext j
  obtain ⟨u, v, o, rfl⟩ : ∃ (u v : Fin 1) (o : Fin 8), j = ix3 u v o := ⟨j 0, j 1, j 2, eq_ix3 j⟩
  obtain rfl : u = 0 := Subsingleton.elim _ _
  obtain rfl : v = 0 := Subsingleton.elim _ _
  show k0_pay1 (F := Ideal) (iblk m c 0 t) (iblk m c 1 t) (iblk m c 2 t) (iblk m c 3 t) (iblk m c 4 t) (ix3 (0 : Fin 1) (0 : Fin 1) o)
    = outArr m c (((cfg0.win 5).blk t).view.emb (ix3 (0 : Fin 1) (0 : Fin 1) o))
  rw [KMath.pay_at]
  unfold outArr Spec.G Spec.hidden Spec.pooled
  have hn : (((cfg0.win 5).blk t).view.emb (ix3 (0 : Fin 1) (0 : Fin 1) o)) 0 = (⟨t.val, lt_of_lt_of_eq t.isLt N_0⟩ : Fin 16) :=
    Fin.ext (by show win0_5.index t (0 : Fin 3) * 1 + 1 * 0 = t.val; omega)
  have ho : (((cfg0.win 5).blk t).view.emb (ix3 (0 : Fin 1) (0 : Fin 1) o)) 2 = o :=
    Fin.ext (by show win0_5.index t (2 : Fin 3) * 8 + 1 * o.val = o.val; omega)
  simp only [ix2, hn, ho, iblk0_apply, iblk1_apply, iblk2_apply, iblk3_apply, iblk4_apply]
  have e3 : (iblk m c 3 t : S16x8.Idx → EReal) = m ((c : Thread nD τ).loc main_arg3) := funext fun j => by
    obtain ⟨a, b, rfl⟩ : ∃ (a : Fin 16) (b : Fin 8), j = ix2 a b := ⟨j 0, j 1, eq_ix2 j⟩
    exact iblk3_apply m c t a b
  have e4 : (iblk m c 4 t : S1x8.Idx → EReal) = m ((c : Thread nD τ).loc main_arg4) := funext fun j => by
    obtain ⟨a, b, rfl⟩ : ∃ (a : Fin 1) (b : Fin 8), j = ix2 a b := ⟨j 0, j 1, eq_ix2 j⟩
    exact iblk4_apply m c t a b
  show Spec.head _ (iblk m c 3 t : S16x8.Idx → EReal) (iblk m c 4 t : S1x8.Idx → EReal) o = _
  rw [e3, e4]

/-- An index of the output array is in point t's block iff its batch coordinate is t. -/
theorem mem_blk (t : Fin cfg0.N) (i : S16x1x8.Idx) :
    i ∈ ((cfg0.win 5).blk t).view.set ↔ ∀ a : Fin 3, win0_5.index t a * S1x1x8.size a ≤ (i a).val ∧ (i a).val < win0_5.index t a * S1x1x8.size a + S1x1x8.size a := by
  show i ∈ ((View.whole main_v1).slice (win0_5.rect t)).set ↔ _
  rw [View.set_slice_whole, Rect.mem_set_unit]
  exact Iff.rfl

/-- Every index of the output array is in some point's block: its batch row's. -/
theorem cover (i : S16x1x8.Idx) : ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 8 := (i 2).isLt
  refine ⟨⟨(i 0).val, by rw [show cfg0.N = 16 from N_0]; exact hi0⟩, flush0_5 _, ?_⟩
  rw [mem_blk]
  obtain ⟨-, -, -, -, -, -, -, -, -, -, -, -, e0, e1, e2⟩ := idx_facts ⟨(i 0).val, by rw [show cfg0.N = 16 from N_0]; exact hi0⟩
  intro a
  match a with
  | ⟨0, _⟩ => show win0_5.index _ (0 : Fin 3) * 1 ≤ (i 0).val ∧ (i 0).val < win0_5.index _ (0 : Fin 3) * 1 + 1; simp only [e0]; omega
  | ⟨1, _⟩ => show win0_5.index _ (1 : Fin 3) * 1 ≤ (i 1).val ∧ (i 1).val < win0_5.index _ (1 : Fin 3) * 1 + 1; simp only [e1]; omega
  | ⟨2, _⟩ => show win0_5.index _ (2 : Fin 3) * 8 ≤ (i 2).val ∧ (i 2).val < win0_5.index _ (2 : Fin 3) * 8 + 8; simp only [e2]; omega

/-- THE OUTPUT ARRAY after the run. -/
theorem final (c : Dev nD) : (dats m 0 c).arrAt 5 cfg0.N = outArr m c :=
  (dats m 0 c).arrAt_eq_of_cover 5 (outArr m c) (fun t _ => flushed_eq m c t) (cover)

/-- The closing reshape: the result [16, 8] at (n, o) is the output array at (n, 0, o). -/
theorem tail_eq (c : Dev nD) :
    Pipeline.afterTail₀ cfgs (dats m) 0 (V0 m) [hostOps1] c main_v2
      = Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1)
      = (dats m 0 c).arrAt 5 cfg0.N from Pipeline.withArrays_arr spec0 launch0.win.arr_inj c _ _ 5, final]
  funext j
  obtain ⟨n, o, rfl⟩ : ∃ (n : Fin 16) (o : Fin 8), j = ix2 n o := ⟨j 0, j 1, eq_ix2 j⟩
  refine (shapeCast_apply (outArr m c) _ (ix2 n o) (ix3 n (0 : Fin 1) o) (by
    rw [Shape.rowMajor_val_three, Shape.rowMajor_val_two]
    show (n.val * 1 + 0) * 8 + o.val = n.val * 8 + o.val
    omega)).trans ?_
  rfl

/-- THE KERNEL'S RUN, read: the result is the specification of the arguments, the arguments are unchanged. -/
theorem run : θ_run defs (onTc (τ := τ) (main (F := Ideal))) ⟨m, fun _ => 0, ρ⟩ (fun r => ∀ c : Dev nD,
      r.2.mem ((c.tc : Thread nD τ).loc main_v2)
        = Spec.G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (tail_eq m c),
     (((h c).2 main_arg0 (Pipeline.mem_restRefs_of main_arg0 (by decide) (by decide))).trans (W_main_arg0 m (dats m) c)),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩)
    (run_main m ρ)

end Cert.KernelIdeal.KValue

end
-- ==== Proof.PoolShared.lean ====
/-
  The pooling region of the reference (its first kernel): what its three kinds of grid point share.

  The grid is 2 x 2 x 4: a point is (i, j, k), k running fastest, so point number t has k = t mod 4. The input
  block at (i, j, k) is rows 8i..8i+7, channels 128j..128j+127 and flat-spatial lanes 4096k..4096k+4095 of the
  [16, 256, 12544] array; the last block (k = 3) overhangs the array: only its first 256 lanes are inside.
  The body keeps an [8, 128, 128] accumulator in a scratch buffer across the four points of one (i, j):
  at k = 0 it is zeroed, at k < 3 the 32 lane-chunks of 128 of the block are added to it, at k = 3 the two
  chunks inside the array are added and the accumulator's 128 lanes are summed and scaled into the [8, 128] output block.
-/
import proofs.«161419_g2000504122983038_pallasbulk_1167_5_alg».proof.Proof.Gen.ReferenceIdeal.Launch
import proofs.«161419_g2000504122983038_pallasbulk_1167_5_alg».proof.Proof.Gen.ReferenceIdeal.Skeleton
import proofs.«161419_g2000504122983038_pallasbulk_1167_5_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, as the body computes them from the coordinate k -/

/-- k = 0: the accumulator is zeroed. -/
abbrev atFirst (i : grid0.Coords) : Prop :=
  (Scalar.cmpi .ne (Scalar.extui (Scalar.cmpi .eq (BitVec.ofNat 32 (i 2).val) 0#32)) 0#32) = 1#1
/-- k < 3: a whole block of 32 chunks is accumulated. -/
abbrev beforeLast (i : grid0.Coords) : Prop :=
  (Scalar.cmpi .ne (Scalar.extui (Scalar.cmpi .slt (BitVec.ofNat 32 (i 2).val) 3#32)) 0#32) = 1#1
/-- k = 3: the two chunks of the last block that lie inside the array are accumulated. -/
abbrev atLast (i : grid0.Coords) : Prop :=
  (Scalar.cmpi .ne (Scalar.extui (Scalar.cmpi .eq (BitVec.ofNat 32 (i 2).val) 3#32)) 0#32) = 1#1
/-- k = 3 again: the accumulator's lanes are summed into the output block. -/
abbrev atFinish (i : grid0.Coords) : Prop := k0_cond4 i = 1#1

theorem atFirst_iff : ∀ t : Fin cfg0.N, atFirst (grid0.coords t) ↔ t.val % 4 = 0 :=
  (by decide +kernel : ∀ t : Fin grid0.N, atFirst (grid0.coords t) ↔ t.val % 4 = 0)
theorem beforeLast_iff : ∀ t : Fin cfg0.N, beforeLast (grid0.coords t) ↔ t.val % 4 ≠ 3 :=
  (by decide +kernel : ∀ t : Fin grid0.N, beforeLast (grid0.coords t) ↔ t.val % 4 ≠ 3)
theorem atLast_iff : ∀ t : Fin cfg0.N, atLast (grid0.coords t) ↔ t.val % 4 = 3 :=
  (by decide +kernel : ∀ t : Fin grid0.N, atLast (grid0.coords t) ↔ t.val % 4 = 3)
theorem atFinish_iff : ∀ t : Fin cfg0.N, atFinish (grid0.coords t) ↔ t.val % 4 = 3 :=
  (by decide +kernel : ∀ t : Fin grid0.N, atFinish (grid0.coords t) ↔ t.val % 4 = 3)

/-! ## Where the windows are idle, written back, cut -/

/-- The input window is never idle. -/
theorem in_live : ∀ t : Fin cfg0.N, cfg0.idle 0 (grid0.coords t) = false := by decide +kernel
/-- The output window is idle exactly at the points with k < 3, -/
theorem out_idle : ∀ t : Fin cfg0.N, t.val % 4 ≠ 3 → cfg0.idle 1 (grid0.coords t) = true := by decide +kernel
theorem out_live : ∀ t : Fin cfg0.N, t.val % 4 = 3 → cfg0.idle 1 (grid0.coords t) = false := by decide +kernel
/-- and not written back there. -/
theorem out_noFlush : ∀ t : Fin cfg0.N, t.val % 4 ≠ 3 → (cfg0.win 1).flush t = false := by decide +kernel
/-- It is never fetched. -/
theorem out_noFetch : ∀ t : Fin cfg0.N, (cfg0.win 1).fetch t = false := by decide +kernel
/-- Which windows the obligation states on the moved part only: the input (its last block is cut), not the output. -/
theorem loose_in : cfg0.loose 0 = true := by decide +kernel
theorem loose_out : cfg0.loose 1 = false := by decide +kernel

/-! ## The memrefs the body is called with -/

abbrev mIn (t : Fin cfg0.N) : Memref sig .tc .vmem S8x128x4096 .f32 := win0_0.stage (cfg0.slots t 0)
abbrev hIn (t : Fin cfg0.N) : (mIn t).IsWhole := hstage0_0 ((cfg0.slots t 0).cast nbuf0_0)
abbrev mOut (t : Fin cfg0.N) : Memref sig .tc .vmem S8x128 .f32 := win0_1.stage (cfg0.slots t 1)
abbrev hOut (t : Fin cfg0.N) : (mOut t).IsWhole := hstage0_1 ((cfg0.slots t 1).cast nbuf0_1)
/-- The accumulator: a whole scoped buffer of the kernel's own. -/
abbrev mAcc : Memref sig .tc .vmem S8x128x128 .f32 := Memref.whole cc0_scratch0
/-- Views through which an output block's and the accumulator's contents are stated. -/
abbrev vOut : View sig .tc .vmem S8x128 .f32 := (Memref.whole cc0_stg1_0 : Memref sig .tc .vmem S8x128 .f32).view
abbrev vAcc : View sig .tc .vmem S8x128x128 .f32 := (mAcc).view

/-- The scoped buffers of the core other than this region's staging buffers and the accumulator (the second
    kernel's staging buffers), each at some contents: untouched by this region. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class invariant of the region with the accumulator split off as a memref owned at some contents. -/
theorem PhiA_eq (c : Dev nD) :
    (Pipeline.ΦA spec0 c : sProp 𝕄)
      = iprop(iprop((∃ d, owns (c : Thread nD τ) mAcc fullShare d) ∗ otherScoped c) ∗ (∃ r, prngReg c r)) := by
  unfold Pipeline.ΦA otherScoped; rw [scopedRest0_eq]; simp only [mAcc, owns_whole]; try rfl

end Cert.ReferenceIdeal.Pool

end
-- ==== Proof.PoolRunFirst.lean ====
/-
  The pooling body at a point with k = 0: the accumulator is zeroed and the block's 32 chunks are added to it;
  the output block is not touched. What the accumulator ends holding is found by running the body.
-/
import proofs.«161419_g2000504122983038_pallasbulk_1167_5_alg».proof.Proof.PoolShared

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 0, on whole memrefs — the input block's at contents `x0`, the output block's at `xi` (handed back untouched), the
    accumulator's at anything — the body runs to the continuation holding the input and output as they were and the
    accumulator with the found pieces written. -/
noncomputable def runFirst (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : atFirst i) (h1 : beforeLast i) (h2 : ¬atLast i) (h3 : ¬atFinish i)
    (x0 : Vec F S8x128x4096 .f32) :
    { LS : List (View.Piece (Elt F) S8x128x128 .f32) //
      ∀ (xi : Vec F S8x128 .f32) (E : Set ℕ) (K : PUnit → sProp 𝕄),
        iprop(owns (c : Thread nD τ) arg3 fullShare x0 ∗ owns (c : Thread nD τ) arg4 fullShare xi ∗ (∃ d, owns (c : Thread nD τ) arg5 fullShare d)
            ∗ (iprop(owns (c : Thread nD τ) arg3 fullShare x0 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg3 harg3 arg4 harg4 arg5 harg5) K } := by
  refine ⟨?_, fun xi E K => ?run⟩
  case run =>
    simp only [cc0__pool_kernel_eq_skeleton]; unfold cc0__pool_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.ReferenceIdeal.Pool

end
-- ==== Proof.PoolRunMiddle.lean ====
/-
  The pooling body at a point with k = 1 or 2: the block's 32 chunks are added to the accumulator the point
  before left; the output block is not touched.
-/
import proofs.«161419_g2000504122983038_pallasbulk_1167_5_alg».proof.Proof.PoolRunFirst

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At 0 < k < 3, on whole memrefs — the input block's at `x0`, the output block's at `xi` (handed back untouched), the
    accumulator's at `xs` — the body runs to the continuation holding the input and output as they were and the
    accumulator with the found pieces written. -/
noncomputable def runMiddle (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : beforeLast i) (h2 : ¬atLast i) (h3 : ¬atFinish i)
    (x0 : Vec F S8x128x4096 .f32) (xs : Vec F S8x128x128 .f32) :
    { LS : List (View.Piece (Elt F) S8x128x128 .f32) //
      ∀ (xi : Vec F S8x128 .f32) (E : Set ℕ) (K : PUnit → sProp 𝕄),
        iprop(owns (c : Thread nD τ) arg3 fullShare x0 ∗ owns (c : Thread nD τ) arg4 fullShare xi ∗ owns (c : Thread nD τ) arg5 fullShare xs
            ∗ (iprop(owns (c : Thread nD τ) arg3 fullShare x0 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg3 harg3 arg4 harg4 arg5 harg5) K } := by
  refine ⟨?_, fun xi E K => ?run⟩
  case run =>
    simp only [cc0__pool_kernel_eq_skeleton]; unfold cc0__pool_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg5.eq_unread hfs
    sl_exec (disch := first | exact h0 | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.ReferenceIdeal.Pool

end
-- ==== Proof.PoolRunLast.lean ====
/-
  The pooling body at a point with k = 3: the last block's two chunks inside the array are added to the
  accumulator the point before left, and the accumulator's lanes are summed and scaled into the output block.
-/
import proofs.«161419_g2000504122983038_pallasbulk_1167_5_alg».proof.Proof.PoolRunMiddle

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 3, on whole memrefs — the input block's at `x0`, the output block's at anything, the accumulator's at `xs` —
    the body runs to the continuation holding the input as it was, and the output block and the accumulator with the
    found pieces written. -/
noncomputable def runLast (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : ¬beforeLast i) (h2 : atLast i) (h3 : atFinish i)
    (x0 : Vec F S8x128x4096 .f32) (xs : Vec F S8x128x128 .f32) :
    Σ' (LO : List (View.Piece (Elt F) S8x128 .f32)), { LS : List (View.Piece (Elt F) S8x128x128 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare xs
            ∗ (iprop(owns (c : Thread nD τ) arg3 fullShare x0 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__pool_kernel i arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%d1, %f1, -, H1⟩, ⟨%fs, %hfs, HS⟩, Hk⟩
    obtain rfl := harg3.eq_unread hf0; obtain rfl := harg5.eq_unread hfs
    sl_exec (disch := first | exact h0 | exact h1 | exact h2 | exact h3)
    sl_step
    iapply Hk
    isplitl [H0]
    · iexists _; isplitr; · ipureintro; exact harg3.read_unread _
      iexact H0
    isplitl [H1]; · iexists _; iexact H1
    iexists _; iexact HS

end Cert.ReferenceIdeal.Pool

end
-- ==== Proof.PoolSums.lean ====
/-
  What the pooling body leaves, in closed form. With the input staging block `x0` ([8, 128, 4096]) cut into its 32
  lane-chunks of 128, a point with k < 3 leaves in the accumulator the old accumulator plus all 32 chunks (added
  pairwise, in the body's order): `bulkSum`; the point k = 3 leaves the old accumulator plus chunks 0 and 1 (the 256
  lanes of the last block inside the array): `tailSum`; and it leaves in the output block the accumulator's 128 lanes
  summed and scaled by the mean factor: `laneMean`.
-/
import proofs.«161419_g2000504122983038_pallasbulk_1167_5_alg».proof.Proof.PoolRunLast
import Idealize.ShloMosaic.Lib.Pipeline.Value

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator `acc` with the 32 chunks of a whole block added. -/
def bulkSum (acc : Vec F S8x128x128 .f32) (x0 : Vec F S8x128x4096 .f32) : Vec F S8x128x128 .f32 :=
  k0_pay2
    (k0_pay9
      (k0_pay7
        (k0_pay5 acc (View.ld x0 (Rect.unit (s := S8x128x4096) ![0, 0, 0] S8x128x128.size inb_S8x128x4096_S8x128x128_0_0_0)) (View.ld x0 (Rect.unit (s := S8x128x4096) ![0, 0, 128] S8x128x128.size inb_S8x128x4096_S8x128x128_0_0_128)) (View.ld x0 (Rect.unit (s := S8x128x4096) ![0, 0, 256] S8x128x128.size inb_S8x128x4096_S8x128x128_0_0_256)) (View.ld x0 (Rect.unit (s := S8x128x4096) ![0, 0, 384] S8x128x128.size inb_S8x128x4096_S8x128x128_0_0_384)) (View.ld x0 (Rect.unit (s := S8x128x4096) ![0, 0, 512] S8x128x128.size inb_S8x128x4096_S8x128x128_0_0_512)) (View.ld x0 (Rect.unit (s := S8x128x4096) ![0, 0, 640] S8x128x128.size inb_S8x128x4096_S8x128x128_0_0_640)) (View.ld x0 (Rect.unit (s := S8x128x4096) ![0, 0, 768] S8x128x128.size inb_S8x128x4096_S8x128x128_0_0_768)) (View.ld x0 (Rect.unit (s := S8x128x4096) ![0, 0, 896] S8x128x128.size inb_S8x128x4096_S8x128x128_0_0_896)))
        (k0_pay6 (View.ld x0 (Rect.unit (s := S8x128x4096) ![0, 0, 1024] S8x128x128.size inb_S8x128x4096_S8x128x128_0_0_1024)))
        (View.ld x0 (Rect.unit (s := S8x128x4096) ![0, 0, 1152] S8x128x128.size inb_S8x128x4096_S8x128x128_0_0_1152)) (View.ld x0 (Rect.unit (s := S8x128x4096) ![0, 0, 1280] S8x128x128.size inb_S8x128x4096_S8x128x128_0_0_1280)) (View.ld x0 (Rect.unit (s := S8x128x4096) ![0, 0, 1408] S8x128x128.size inb_S8x128x4096_S8x128x128_0_0_1408)) (View.ld x0 (Rect.unit (s := S8x128x4096) ![0, 0, 1536] S8x128x128.size inb_S8x128x4096_S8x128x128_0_0_1536)) (View.ld x0 (Rect.unit (s := S8x128x4096) ![0, 0, 1664] S8x128x128.size inb_S8x128x4096_S8x128x128_0_0_1664)) (View.ld x0 (Rect.unit (s := S8x128x4096) ![0, 0, 1792] S8x128x128.size inb_S8x128x4096_S8x128x128_0_0_1792)) (View.ld x0 (Rect.unit (s := S8x128x4096) ![0, 0, 1920] S8x128x128.size inb_S8x128x4096_S8x128x128_0_0_1920)) (View.ld x0 (Rect.unit (s := S8x128x4096) ![0, 0, 2048] S8x128x128.size inb_S8x128x4096_S8x128x128_0_0_2048)) (View.ld x0 (Rect.unit (s := S8x128x4096) ![0, 0, 2176] S8x128x128.size inb_S8x128x4096_S8x128x128_0_0_2176)))
      (k0_pay8 (View.ld x0 (Rect.unit (s := S8x128x4096) ![0, 0, 2304] S8x128x128.size inb_S8x128x4096_S8x128x128_0_0_2304)))
      (View.ld x0 (Rect.unit (s := S8x128x4096) ![0, 0, 2432] S8x128x128.size inb_S8x128x4096_S8x128x128_0_0_2432)) (View.ld x0 (Rect.unit (s := S8x128x4096) ![0, 0, 2560] S8x128x128.size inb_S8x128x4096_S8x128x128_0_0_2560)) (View.ld x0 (Rect.unit (s := S8x128x4096) ![0, 0, 2688] S8x128x128.size inb_S8x128x4096_S8x128x128_0_0_2688)) (View.ld x0 (Rect.unit (s := S8x128x4096) ![0, 0, 2816] S8x128x128.size inb_S8x128x4096_S8x128x128_0_0_2816)) (View.ld x0 (Rect.unit (s := S8x128x4096) ![0, 0, 2944] S8x128x128.size inb_S8x128x4096_S8x128x128_0_0_2944)) (View.ld x0 (Rect.unit (s := S8x128x4096) ![0, 0, 3072] S8x128x128.size inb_S8x128x4096_S8x128x128_0_0_3072)) (View.ld x0 (Rect.unit (s := S8x128x4096) ![0, 0, 3200] S8x128x128.size inb_S8x128x4096_S8x128x128_0_0_3200)) (View.ld x0 (Rect.unit (s := S8x128x4096) ![0, 0, 3328] S8x128x128.size inb_S8x128x4096_S8x128x128_0_0_3328)) (View.ld x0 (Rect.unit (s := S8x128x4096) ![0, 0, 3456] S8x128x128.size inb_S8x128x4096_S8x128x128_0_0_3456)))
    (k0_pay10 (View.ld x0 (Rect.unit (s := S8x128x4096) ![0, 0, 3584] S8x128x128.size inb_S8x128x4096_S8x128x128_0_0_3584)))
    (View.ld x0 (Rect.unit (s := S8x128x4096) ![0, 0, 3712] S8x128x128.size inb_S8x128x4096_S8x128x128_0_0_3712)) (View.ld x0 (Rect.unit (s := S8x128x4096) ![0, 0, 3840] S8x128x128.size inb_S8x128x4096_S8x128x128_0_0_3840)) (View.ld x0 (Rect.unit (s := S8x128x4096) ![0, 0, 3968] S8x128x128.size inb_S8x128x4096_S8x128x128_0_0_3968))

/-- The accumulator `acc` with the first two chunks of the last block added. -/
def tailSum (acc : Vec F S8x128x128 .f32) (x0 : Vec F S8x128x4096 .f32) : Vec F S8x128x128 .f32 :=
  k0_pay3 acc (View.ld x0 (Rect.unit (s := S8x128x4096) ![0, 0, 0] S8x128x128.size inb_S8x128x4096_S8x128x128_0_0_0)) (View.ld x0 (Rect.unit (s := S8x128x4096) ![0, 0, 128] S8x128x128.size inb_S8x128x4096_S8x128x128_0_0_128))

/-- The accumulator's lanes summed and scaled: the output block. -/
def laneMean (acc : Vec F S8x128x128 .f32) : Vec F S8x128 .f32 := k0_pay4 acc

theorem hz3 : (![0, 0, 0] : Fin 3 → Nat) = fun _ => 0 := funext fun a => by fin_cases a <;> rfl
theorem hz2 : (![0, 0] : Fin 2 → Nat) = fun _ => 0 := funext fun a => by fin_cases a <;> rfl

/-! ## The found pieces cover their buffers -/

theorem coverFirst (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : atFirst i) (h1 : beforeLast i) (h2 : ¬atLast i) (h3 : ¬atFinish i)
    (x0 : Vec F S8x128x4096 .f32) (y : S8x128x128.Idx) :
    ∃ pc ∈ (runFirst c i arg3 harg3 arg4 harg4 arg5 harg5 h0 h1 h2 h3 x0).1, y ∈ pc.1.set :=
  View.cover_of_tiledL (runFirst c i arg3 harg3 arg4 harg4 arg5 harg5 h0 h1 h2 h3 x0).1 S8x128x128.size (by sl_kernel_rfl) y

theorem coverMiddle (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : beforeLast i) (h2 : ¬atLast i) (h3 : ¬atFinish i)
    (x0 : Vec F S8x128x4096 .f32) (xs : Vec F S8x128x128 .f32) (y : S8x128x128.Idx) :
    ∃ pc ∈ (runMiddle c i arg3 harg3 arg4 harg4 arg5 harg5 h0 h1 h2 h3 x0 xs).1, y ∈ pc.1.set :=
  View.cover_of_tiledL (runMiddle c i arg3 harg3 arg4 harg4 arg5 harg5 h0 h1 h2 h3 x0 xs).1 S8x128x128.size (by sl_kernel_rfl) y

theorem coverLastAcc (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : ¬beforeLast i) (h2 : atLast i) (h3 : atFinish i)
    (x0 : Vec F S8x128x4096 .f32) (xs : Vec F S8x128x128 .f32) (y : S8x128x128.Idx) :
    ∃ pc ∈ (runLast c i arg3 harg3 arg4 harg4 arg5 harg5 h0 h1 h2 h3 x0 xs).2.1, y ∈ pc.1.set :=
  View.cover_of_tiledL (runLast c i arg3 harg3 arg4 harg4 arg5 harg5 h0 h1 h2 h3 x0 xs).2.1 S8x128x128.size (by sl_kernel_rfl) y

theorem coverLastOut (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : ¬beforeLast i) (h2 : atLast i) (h3 : atFinish i)
    (x0 : Vec F S8x128x4096 .f32) (xs : Vec F S8x128x128 .f32) (y : S8x128.Idx) :
    ∃ pc ∈ (runLast c i arg3 harg3 arg4 harg4 arg5 harg5 h0 h1 h2 h3 x0 xs).1, y ∈ pc.1.set :=
  View.cover_of_tiledL (runLast c i arg3 harg3 arg4 harg4 arg5 harg5 h0 h1 h2 h3 x0 xs).1 S8x128.size (by sl_kernel_rfl) y

/-! ## The found pieces, read back, are the closed forms -/

set_option maxHeartbeats 2000000 in
/-- At k = 0 the accumulator ends at the zero block plus the point's 32 chunks. -/
theorem accFirst_eq (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : atFirst i) (h1 : beforeLast i) (h2 : ¬atLast i) (h3 : ¬atFinish i)
    (x0 : Vec F S8x128x4096 .f32) :
    vAcc.read (Elt F) (vAcc.writes (Elt F) vAcc.junk (runFirst c i arg3 harg3 arg4 harg4 arg5 harg5 h0 h1 h2 h3 x0).1)
      = bulkSum (k0_pay1 (F := F)) x0 := by
  rw [View.read_writes_eq_canon _ _ _ (coverFirst c i arg3 harg3 arg4 harg4 arg5 harg5 h0 h1 h2 h3 x0)]
  unfold runFirst; dsimp only
  sl_unfold_words
  rw [View.canon_cons_unit_zero hz3]
  simp only [View.readAt_eq_ld, harg3.read_unread, View.readCov_unit_zero (S := S8x128x128) _ hz3]
  unfold bulkSum
  rfl

set_option maxHeartbeats 2000000 in
/-- At 0 < k < 3 the accumulator ends at what it held plus the point's 32 chunks. -/
theorem accMiddle_eq (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : beforeLast i) (h2 : ¬atLast i) (h3 : ¬atFinish i)
    (x0 : Vec F S8x128x4096 .f32) (xs : Vec F S8x128x128 .f32) :
    vAcc.read (Elt F) (vAcc.writes (Elt F) vAcc.junk (runMiddle c i arg3 harg3 arg4 harg4 arg5 harg5 h0 h1 h2 h3 x0 xs).1)
      = bulkSum xs x0 := by
  rw [View.read_writes_eq_canon _ _ _ (coverMiddle c i arg3 harg3 arg4 harg4 arg5 harg5 h0 h1 h2 h3 x0 xs)]
  unfold runMiddle; dsimp only
  sl_unfold_words
  rw [View.canon_unit_zero hz3]
  simp only [View.readAt_eq_ld, harg3.read_unread, harg5.read_unread, View.ld_unit_zero (S := S8x128x128) hz3]
  unfold bulkSum
  rfl

set_option maxHeartbeats 2000000 in
/-- At k = 3 the accumulator ends at what it held plus the last block's two chunks inside the array, -/
theorem accLast_eq (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : ¬beforeLast i) (h2 : atLast i) (h3 : atFinish i)
    (x0 : Vec F S8x128x4096 .f32) (xs : Vec F S8x128x128 .f32) :
    vAcc.read (Elt F) (vAcc.writes (Elt F) vAcc.junk (runLast c i arg3 harg3 arg4 harg4 arg5 harg5 h0 h1 h2 h3 x0 xs).2.1)
      = tailSum xs x0 := by
  rw [View.read_writes_eq_canon _ _ _ (coverLastAcc c i arg3 harg3 arg4 harg4 arg5 harg5 h0 h1 h2 h3 x0 xs)]
  unfold runLast; dsimp only
  sl_unfold_words
  rw [View.canon_unit_zero hz3]
  simp only [View.readAt_eq_ld, harg3.read_unread, harg5.read_unread, View.ld_unit_zero (S := S8x128x128) hz3]
  rfl

set_option maxHeartbeats 2000000 in
/-- and the output block at that accumulator's lanes summed and scaled. -/
theorem outLast_eq (c : Dev nD) (i : grid0.Coords) (arg3 : Memref sig .tc .vmem S8x128x4096 .f32) (harg3 : arg3.IsWhole) (arg4 : Memref sig .tc .vmem S8x128 .f32) (harg4 : arg4.IsWhole) (arg5 : Memref sig .tc .vmem S8x128x128 .f32) (harg5 : arg5.IsWhole)
    (h0 : ¬atFirst i) (h1 : ¬beforeLast i) (h2 : atLast i) (h3 : atFinish i)
    (x0 : Vec F S8x128x4096 .f32) (xs : Vec F S8x128x128 .f32) :
    vOut.read (Elt F) (vOut.writes (Elt F) vOut.junk (runLast c i arg3 harg3 arg4 harg4 arg5 harg5 h0 h1 h2 h3 x0 xs).1)
      = laneMean (tailSum xs x0) := by
  rw [View.read_writes_eq_canon _ _ _ (coverLastOut c i arg3 harg3 arg4 harg4 arg5 harg5 h0 h1 h2 h3 x0 xs)]
  unfold runLast; dsimp only
  sl_unfold_words
  rw [View.canon_unit_zero hz2]
  simp only [View.readAt_eq_ld, harg3.read_unread, harg5.read_unread, View.readCov_unit_zero (S := S8x128x128) _ hz3, View.ld_unit_zero (S := S8x128x128) hz3]
  rfl

end Cert.ReferenceIdeal.Pool

end
-- ==== Proof.PoolData.lean ====
/-
  The pooling region's proof data and its body obligation.

  What the accumulator holds after point t, by recursion on t: at k = 0 the zero block plus the point's block's 32
  chunks; at k = 1, 2 what point t − 1 left plus the block's chunks; at k = 3 what point t − 1 left plus the two
  chunks of the last block inside the array. The output block's staging buffer holds, after a point with k = 3, the
  lanes of that accumulator summed and scaled; at the other points it is idle. The input's staging buffer holds the
  fetched block: the array's block on the part inside the array, and on the overhang of a last block words nothing
  names — which the body never loads.
-/
import proofs.«161419_g2000504122983038_pallasbulk_1167_5_alg».proof.Proof.PoolSums

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it: its part inside the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer after the fetch at point `t` into a buffer holding `d`. -/
def staged (c : Dev nD) (t : Fin cfg0.N) (d : S8x128x4096.Idx → Elt F .f32) : S8x128x4096.Idx → Elt F .f32 :=
  win0_0.fill (grid0.coords t) d (iblk V c 0 t)

/-- A fixed filler for the overhang, to name one staging contents per point. -/
def filler : S8x128x4096.Idx → Elt F .f32 := fun _ => Scalar.ofBits .f32 0#32

/-! ## The overhang is never loaded -/

/-- At the points with k < 3 the block lies inside the array: no axis is cut. -/
theorem uncut : ∀ t : Fin cfg0.N, t.val % 4 ≠ 3 → ∀ a, (cfg0.win 0).clip (grid0.coords t) a = none := by decide +kernel
/-- At the points with k = 3 the block's part inside the array is all 8 rows, all 128 channels and the first 256 lanes. -/
theorem cut_sizes : ∀ t : Fin cfg0.N, t.val % 4 = 3 →
    win0_0.xsize (grid0.coords t) 0 = 8 ∧ win0_0.xsize (grid0.coords t) 1 = 128 ∧ win0_0.xsize (grid0.coords t) 2 = 256 := by decide +kernel

theorem staged_uncut (c : Dev nD) (t : Fin cfg0.N) (h : t.val % 4 ≠ 3) (d d' : S8x128x4096.Idx → Elt F .f32) :
    staged V c t d = staged V c t d' := by
  funext j
  have hm : win0_0.moved (grid0.coords t) j = true :=
    (win0_0.moved_iff _ j).mpr fun a => by have := (j a).isLt; unfold Window.xsize; rw [uncut t h a]; exact this
  unfold staged Window.fill; rw [dif_pos hm, dif_pos hm]

/-- A chunk of 128 lanes that ends within the first 256 reads the same of any two fetches at a point with k = 3. -/
theorem ld_staged_last (c : Dev nD) (t : Fin cfg0.N) (h : t.val % 4 = 3) (d d' : S8x128x4096.Idx → Elt F .f32)
    (off : Nat) (hoff : off + 128 ≤ 256) (inb : ∀ a, (![0, 0, off] : Fin 3 → Nat) a + S8x128x128.size a ≤ S8x128x4096.size a) :
    View.ld (staged V c t d) (Rect.unit (s := S8x128x4096) ![0, 0, off] S8x128x128.size inb)
      = View.ld (staged V c t d') (Rect.unit (s := S8x128x4096) ![0, 0, off] S8x128x128.size inb) := by
  funext x
  obtain ⟨s0, s1, s2⟩ := cut_sizes t h
  have hm : win0_0.moved (grid0.coords t) ((Rect.unit (s := S8x128x4096) ![0, 0, off] S8x128x128.size inb).idx x) = true := by
    refine (win0_0.moved_iff _ _).mpr fun a => ?_
    have hx := (x a).isLt
    match a with
    | ⟨0, q⟩ => refine lt_of_lt_of_eq ?_ s0.symm; have hx' : (x ⟨0, q⟩).val < 8 := hx; show 0 + 1 * (x ⟨0, q⟩).val < 8; omega
    | ⟨1, q⟩ => refine lt_of_lt_of_eq ?_ s1.symm; have hx' : (x ⟨1, q⟩).val < 128 := hx; show 0 + 1 * (x ⟨1, q⟩).val < 128; omega
    | ⟨2, q⟩ => refine lt_of_lt_of_eq ?_ s2.symm; have hx' : (x ⟨2, q⟩).val < 128 := hx; show off + 1 * (x ⟨2, q⟩).val < 256; omega
  show staged V c t d _ = staged V c t d' _
  unfold staged Window.fill; rw [dif_pos hm, dif_pos hm]

theorem bulkSum_staged (c : Dev nD) (t : Fin cfg0.N) (h : t.val % 4 ≠ 3) (acc : Vec F S8x128x128 .f32) (d d' : S8x128x4096.Idx → Elt F .f32) :
    bulkSum acc (staged V c t d) = bulkSum acc (staged V c t d') := by
  rw [staged_uncut V c t h d d']

theorem tailSum_staged (c : Dev nD) (t : Fin cfg0.N) (h : t.val % 4 = 3) (acc : Vec F S8x128x128 .f32) (d d' : S8x128x4096.Idx → Elt F .f32) :
    tailSum acc (staged V c t d) = tailSum acc (staged V c t d') := by
  unfold tailSum
  rw [ld_staged_last V c t h d d' 0 (by omega), ld_staged_last V c t h d d' 128 (by omega)]

/-! ## The accumulator, point by point -/

/-- What the accumulator holds after the body at position `n`. -/
def accAt (c : Dev nD) : (n : ℕ) → n < cfg0.N → Vec F S8x128x128 .f32
  | 0, hn => bulkSum (k0_pay1 (F := F)) (staged V c ⟨0, hn⟩ filler)
  | n + 1, hn =>
    if (n + 1) % 4 = 0 then bulkSum (k0_pay1 (F := F)) (staged V c ⟨n + 1, hn⟩ filler)
    else if (n + 1) % 4 = 3 then tailSum (accAt c n (Nat.lt_of_succ_lt hn)) (staged V c ⟨n + 1, hn⟩ filler)
    else bulkSum (accAt c n (Nat.lt_of_succ_lt hn)) (staged V c ⟨n + 1, hn⟩ filler)

theorem accAt_first (c : Dev nD) (t : Fin cfg0.N) (h0 : t.val % 4 = 0) :
    accAt V c t.val t.isLt = bulkSum (k0_pay1 (F := F)) (staged V c t filler) := by
  obtain ⟨n, hn⟩ := t
  cases n with
  | zero => rfl
  | succ n => exact (if_pos h0)

theorem accAt_middle (c : Dev nD) (t : Fin cfg0.N) (h0 : ¬t.val % 4 = 0) (h3 : ¬t.val % 4 = 3) :
    accAt V c t.val t.isLt = bulkSum (accAt V c (t.val - 1) (Nat.lt_of_le_of_lt (Nat.sub_le _ _) t.isLt)) (staged V c t filler) := by
  obtain ⟨n, hn⟩ := t
  cases n with
  | zero => exact absurd (Nat.zero_mod _) h0
  | succ n => exact (if_neg h0).trans ((if_neg h3).trans rfl)

theorem accAt_last (c : Dev nD) (t : Fin cfg0.N) (h0 : ¬t.val % 4 = 0) (h3 : t.val % 4 = 3) :
    accAt V c t.val t.isLt = tailSum (accAt V c (t.val - 1) (Nat.lt_of_le_of_lt (Nat.sub_le _ _) t.isLt)) (staged V c t filler) := by
  obtain ⟨n, hn⟩ := t
  cases n with
  | zero => exact absurd (Nat.zero_mod _) h0
  | succ n => exact (if_neg h0).trans ((if_pos h3).trans rfl)

/-- The region's invariant before position `n`: before the first point the class's (the accumulator at anything);
    afterwards the accumulator at what the point before left, the other scoped buffers and the generator register. -/
def PhiS (c : Dev nD) : (n : ℕ) → n ≤ cfg0.N → sProp 𝕄
  | 0, _ => Pipeline.ΦA spec0 c
  | n + 1, hn => iprop(iprop(owns (c : Thread nD τ) mAcc fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mAcc fullShare (accAt V c n hn) ∗ otherScoped c) ∗ (∃ r, prngReg c r)) := rfl
theorem PhiS_pos (c : Dev nD) (n : ℕ) (h : n ≤ cfg0.N) (hz : n ≠ 0) :
    PhiS V c n h = iprop(iprop(owns (c : Thread nD τ) mAcc fullShare (accAt V c (n - 1) (by omega)) ∗ otherScoped c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => staged V c t filler
    | ⟨1, _⟩ => laneMean (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = staged V c t filler := by dsimp only [dat]
theorem after_out (c : Dev nD) (t : Fin cfg0.N) : (dat V c).after 1 t = laneMean (accAt V c t.val t.isLt) := by dsimp only [dat]
theorem PhiS_castSucc (c : Dev nD) (t : Fin cfg0.N) :
    (dat V c).Φ t.castSucc = PhiS V c t.val (Nat.le_of_lt t.isLt) := by
  dsimp only [dat]; simp only [Fin.coe_castSucc]

/-- The input's buffer when the body runs: just fetched. -/
theorem before_in (c : Dev nD) (t : Fin cfg0.N) (d) : (dat V c).before 0 t d = staged V c t d := by
  unfold Dat.before; rw [if_pos (fetch0_0 t)]
  unfold Dat.fetched Dat.blockOf staged iblk; rw [A_eq]

/-- What the loose obligation asks of the input's buffer after the body: the fetched block, the overhang at anything. -/
theorem leaves_in (c : Dev nD) (t : Fin cfg0.N) :
    (dat V c).leaves 0 t = iprop(∃ d, owns (c : Thread nD τ) (mIn t) fullShare (staged V c t d)) := by
  unfold Dat.leaves; rw [in_live t]; simp only [loose_in]
  rw [after_in]
  have e : ∀ d, (cfg0.win 0).fill (cfg0.grid.coords t) d ((cfg0.win 0).cut (cfg0.grid.coords t) (staged V c t filler)) = staged V c t d := by
    intro d; unfold staged; rw [show (cfg0.win 0).cut (cfg0.grid.coords t) (win0_0.fill (grid0.coords t) filler (iblk V c 0 t)) = iblk V c 0 t from win0_0.cut_fill _ _ _]
  simp only [e]; rfl

/-- At an idle point the output's buffer is handed back as found. -/
theorem leaves_out_idle (c : Dev nD) (t : Fin cfg0.N) (h : t.val % 4 ≠ 3) :
    (dat V c).leaves 1 t = iprop(∃ d, owns (c : Thread nD τ) (mOut t) fullShare ((dat V c).before 1 t d)) :=
  Dat.leaves_idle (dat V c) 1 t (out_idle t h) (out_noFlush t h)

/-- At a point with k = 3 it holds the lane sums. -/
theorem leaves_out_live (c : Dev nD) (t : Fin cfg0.N) (h : t.val % 4 = 3) :
    (dat V c).leaves 1 t = owns (c : Thread nD τ) (mOut t) fullShare (laneMean (accAt V c t.val t.isLt)) := by
  unfold Dat.leaves; rw [out_live t h]; simp only [loose_out]; rw [after_out]

/-! ## The body obligation -/

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mOut t) fullShare ((dat V c).before 1 t d)))

def bodyPost (c : Dev nD) (t : Fin cfg0.N) : sProp 𝕄 :=
  iprop((dat V c).Φ t.succ ∗ (dat V c).owesAt () t.succ
    ∗ (dat V c).leaves 0 t
    ∗ (dat V c).leaves 1 t)

set_option maxHeartbeats 4800000 in
/-- The body at any point, by the kind of point. The invariant hands the body the accumulator at what the point
    before left (at anything at the first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ, leaves_in]
  have hN : t.val < 16 := lt_of_lt_of_eq t.isLt (show cfg0.N = 16 from N_0)
  by_cases h0 : t.val % 4 = 0
  · have h3 : t.val % 4 ≠ 3 := by omega
    have c0 := (atFirst_iff t).mpr h0
    have c1 := (beforeLast_iff t).mpr h3
    have c2 : ¬atLast (grid0.coords t) := fun h => h3 ((atLast_iff t).mp h)
    have c3 : ¬atFinish (grid0.coords t) := fun h => h3 ((atFinish_iff t).mp h)
    rw [leaves_out_idle V c t h3, accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩⟩
      iapply ((runFirst c (grid0.coords t) _ _ _ _ _ _ c0 c1 c2 c3 (staged V c t d0)).2 _ Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro
            exact (View.read_writes_of_cover _ _ _ _ _ (coverFirst c _ _ _ _ _ _ _ c0 c1 c2 c3 _)).trans
              ((accFirst_eq c _ _ _ _ _ _ _ c0 c1 c2 c3 _).trans (bulkSum_staged V c t h3 _ _ _))
          iexact HR
        iexact Hg
      isplitl [Ho]; · iexact Ho
      isplitl [H0]; · iexists _; iexact H0
      iexists _; iexact H1
    · rw [PhiS_castSucc V c t, PhiS_pos V c _ _ hz]
      iintro ⟨⟨⟨HS, HR⟩, Hg⟩, Ho, ⟨%d0, H0⟩, ⟨%d1, H1⟩⟩
      iapply ((runFirst c (grid0.coords t) _ _ _ _ _ _ c0 c1 c2 c3 (staged V c t d0)).2 _ Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro
            exact (View.read_writes_of_cover _ _ _ _ _ (coverFirst c _ _ _ _ _ _ _ c0 c1 c2 c3 _)).trans
              ((accFirst_eq c _ _ _ _ _ _ _ c0 c1 c2 c3 _).trans (bulkSum_staged V c t h3 _ _ _))
          iexact HR
        iexact Hg
      isplitl [Ho]; · iexact Ho
      isplitl [H0]; · iexists _; iexact H0
      iexists _; iexact H1
  · have hz : t.val ≠ 0 := fun h => h0 (by rw [h])
    have c0 : ¬atFirst (grid0.coords t) := fun h => h0 ((atFirst_iff t).mp h)
    by_cases h3 : t.val % 4 = 3
    · have c1 : ¬beforeLast (grid0.coords t) := fun h => (beforeLast_iff t).mp h h3
      have c2 := (atLast_iff t).mpr h3
      have c3 := (atFinish_iff t).mpr h3
      rw [leaves_out_live V c t h3, accAt_last V c t h0 h3]
      rw [PhiS_castSucc V c t, PhiS_pos V c _ _ hz]
      iintro ⟨⟨⟨HS, HR⟩, Hg⟩, Ho, ⟨%d0, H0⟩, ⟨%d1, H1⟩⟩
      iapply ((runLast c (grid0.coords t) _ _ _ _ _ _ c0 c1 c2 c3 (staged V c t d0) _).2.2 Set.univ _)
      isplitl [H0]; · iexact H0
      isplitl [H1]; · iexists _; iexact H1
      isplitl [HS]; · iexact HS
      iintro ⟨H0, ⟨%e1, H1⟩, ⟨%es, HS⟩⟩
      isplitl [HS HR Hg]
      · isplitl [HS HR]
        · isplitl [HS]
          · unfold owns; iexists _; isplitr
            swap; · iexact HS
            ipureintro
            exact (View.read_writes_of_cover _ _ _ _ _ (coverLastAcc c _ _ _ _ _ _ _ c0 c1 c2 c3 _ _)).trans
              ((accLast_eq c _ _ _ _ _ _ _ c0 c1 c2 c3 _ _).trans (tailSum_staged V c t h3 _ _ _))
          iexact HR
        iexact Hg
      isplitl [Ho]; · iexact Ho
      isplitl [H0]; · iexists _; iexact H0
      unfold owns; iexists _; isplitr
      swap; · iexact H1
      ipureintro
      exact (View.read_writes_of_cover _ _ _ _ _ (coverLastOut c _ _ _ _ _ _ _ c0 c1 c2 c3 _ _)).trans
        ((outLast_eq c _ _ _ _ _ _ _ c0 c1 c2 c3 _ _).trans (congrArg laneMean (tailSum_staged V c t h3 _ _ _)))
    · have c1 := (beforeLast_iff t).mpr h3
      have c2 : ¬atLast (grid0.coords t) := fun h => h3 ((atLast_iff t).mp h)
      have c3 : ¬atFinish (grid0.coords t) := fun h => h3 ((atFinish_iff t).mp h)
      rw [leaves_out_idle V c t h3, accAt_middle V c t h0 h3]
      rw [PhiS_castSucc V c t, PhiS_pos V c _ _ hz]
      iintro ⟨⟨⟨HS, HR⟩, Hg⟩, Ho, ⟨%d0, H0⟩, ⟨%d1, H1⟩⟩
      iapply ((runMiddle c (grid0.coords t) _ _ _ _ _ _ c0 c1 c2 c3 (staged V c t d0) _).2 _ Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro
            exact (View.read_writes_of_cover _ _ _ _ _ (coverMiddle c _ _ _ _ _ _ _ c0 c1 c2 c3 _ _)).trans
              ((accMiddle_eq c _ _ _ _ _ _ _ c0 c1 c2 c3 _ _).trans (bulkSum_staged V c t h3 _ _ _))
          iexact HR
        iexact Hg
      isplitl [Ho]; · iexact Ho
      isplitl [H0]; · iexists _; iexact H0
      iexists _; iexact H1

/-- The library's body obligation, in the form the loop uses, at every point. -/
theorem body_obligation (c : Dev nD) : Pipeline.BodyObligationLoose (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨HS, HR⟩, Hg⟩
  isplitl [HS HR]
  · isplitl [HS]
    · iexists _; iexact HS
    iexact HR
  iexact Hg

end Cert.ReferenceIdeal.Pool

end
-- ==== Proof.FcRegion.lean ====
/-
  The second kernel of the reference, on its one grid point: from the pooled means [16, 256] and the four weight
  arrays it computes the two dense layers, the rectifier between them, and 2·logistic − 1, and stores the [16, 8] result.
  Every window is the whole of its array, so the body reads the arrays as the region finds them.
-/
import proofs.«161419_g2000504122983038_pallasbulk_1167_5_alg».proof.Proof.PoolShared

set_option maxRecDepth 16384

noncomputable section

namespace Cert.ReferenceIdeal.Dense

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at the point, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block when the body runs. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block when the body runs. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block when the body runs. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block when the body runs. -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block when the body runs. -/
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev whole0 : Rect S16x256 := Rect.unit (s := S16x256) ![0, 0] S16x256.size inb_S16x256_S16x256_0_0
abbrev whole1 : Rect S256x16 := Rect.unit (s := S256x16) ![0, 0] S256x16.size inb_S256x16_S256x16_0_0
abbrev whole2 : Rect S1x16 := Rect.unit (s := S1x16) ![0, 0] S1x16.size inb_S1x16_S1x16_0_0
abbrev whole3 : Rect S16x8 := Rect.unit (s := S16x8) ![0, 0] S16x8.size inb_S16x8_S16x8_0_0
abbrev whole4 : Rect S1x8 := Rect.unit (s := S1x8) ![0, 0] S1x8.size inb_S1x8_S1x8_0_0
abbrev whole5 : Rect S16x8 := Rect.unit (s := S16x8) ![0, 0] S16x8.size inb_S16x8_S16x8_0_0

/-- What the body leaves in the result's staging buffer, from the five input blocks. -/
def result (x0 : Vec F S16x256 .f32) (x1 : Vec F S256x16 .f32) (x2 : Vec F S1x16 .f32) (x3 : Vec F S16x8 .f32) (x4 : Vec F S1x8 .f32) : Vec F S16x8 .f32 :=
  View.canon [⟨whole5, k1_pay1 (View.ld x0 whole0) (View.ld x1 whole1) (View.ld x2 whole2) (View.ld x3 whole3) (View.ld x4 whole4)⟩]

theorem cover_result (p0 : Vec F S16x8 .f32) (y : S16x8.Idx) :
    ∃ pc ∈ ([⟨whole5, p0⟩] : List (View.Piece (Elt F) S16x8 .f32)), y ∈ pc.1.set :=
  View.cover_of_tiled [⟨whole5, p0⟩] S16x8.size (by rfl) y

set_option maxHeartbeats 1000000 in
/-- The body on whole staging memrefs, the inputs' at contents `xW` and the result's at anything, runs to the
    continuation holding the inputs' as they were and the result's at `result` of them. -/
theorem sound_kernel (c : Dev nD) (E : Set ℕ) (i : grid1.Coords) (arg1 : Memref sig .tc .vmem S16x256 .f32) (harg1 : arg1.IsWhole) (arg2 : Memref sig .tc .vmem S256x16 .f32) (harg2 : arg2.IsWhole) (arg3 : Memref sig .tc .vmem S1x16 .f32) (harg3 : arg3.IsWhole) (arg4 : Memref sig .tc .vmem S16x8 .f32) (harg4 : arg4.IsWhole) (arg5 : Memref sig .tc .vmem S1x8 .f32) (harg5 : arg5.IsWhole) (arg6 : Memref sig .tc .vmem S16x8 .f32) (harg6 : arg6.IsWhole)
    (x0 : Vec F S16x256 .f32) (x1 : Vec F S256x16 .f32) (x2 : Vec F S1x16 .f32) (x3 : Vec F S16x8 .f32) (x4 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (result x0 x1 x2 x3 x4)) -∗ K ⟨⟩))
      ⊢ wp frame (wpE (defs₀ (F := F)) Variants.none c none) E (cc1__fc_kernel i arg1 harg1 arg2 harg2 arg3 harg3 arg4 harg4 arg5 harg5 arg6 harg6) K := by
  simp only [cc1__fc_kernel_eq_skeleton]; unfold cc1__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_result _)

/-! ## The proof data -/

/-- The arrays as the region finds them; after the body each input's buffer at its block and the result's at
    `result` of the input blocks; the invariant the scoped rest and the generator register, untouched; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => result (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = result (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.ReferenceIdeal.Dense

end
-- ==== Proof.RefRun.lean ====
/-
  The reference's run, with values. @main is a reshape of the input to [16, 256, 12544], the pooling kernel, the
  dense kernel. The core's buffer contents are followed through the three items — after the reshape; with the pooling
  region's arrays at what its write-backs leave; with the dense region's arrays at what its write-back leaves — and
  every weakly fair execution ends with every unscoped buffer at the last of these.
-/
import proofs.«161419_g2000504122983038_pallasbulk_1167_5_alg».proof.Proof.PoolData
import proofs.«161419_g2000504122983038_pallasbulk_1167_5_alg».proof.Proof.FcRegion

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m (c, b)
/-- After the reshape (the pooling region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the pooling region's exit (the dense region's entry): its arrays at what the pipeline leaves, every other buffer as entered. -/
def W2 (c : Dev nD) : Valuation τ sig (Elt F) :=
  Pipeline.withArrays spec0 c (W1 m c) fun w => (Pool.dat (V1 m) c).arrAt w cfg0.N
theorem W2_arr (c : Dev nD) (w : Fin cfg0.W) :
    W2 m c (Proc.devRef .tc (Pipeline.arrRef spec0 w)) = (Pool.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Pool.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the dense region's exit: the end. -/
def W3 (c : Dev nD) : Valuation τ sig (Elt F) :=
  Pipeline.withArrays spec1 c (W2 m c) fun w => (Dense.dat (V2 m) c).arrAt w cfg1.N
theorem W3_arr (c : Dev nD) (w : Fin cfg1.W) :
    W3 m c (Proc.devRef .tc (Pipeline.arrRef spec1 w)) = (Dense.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Dense.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments are never written -/

/-- The reshape writes only its result. -/
theorem W1_of_ne (c : Dev nD) (b : Ref sig .tc) (hb : b ≠ main_v0) : W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_main_arg0 (c : Dev nD) : W3 m c (Proc.devRef .tc main_arg0) = m ((c : Thread nD τ).loc main_arg0) :=
  (W3_of_ne m c main_arg0 (by decide)).trans ((W2_of_ne m c main_arg0 (by decide)).trans (W1_of_ne m c main_arg0 (by decide)))
theorem W3_main_arg1 (c : Dev nD) : W3 m c (Proc.devRef .tc main_arg1) = m ((c : Thread nD τ).loc main_arg1) :=
  (W3_arr m c 1).trans (((Dense.dat (V2 m) c).arrAt_in 1 rfl _).trans ((Dense.A_eq (V2 m) c 1).trans
    ((W2_of_ne m c main_arg1 (by decide)).trans (W1_of_ne m c main_arg1 (by decide)))))
theorem W3_main_arg2 (c : Dev nD) : W3 m c (Proc.devRef .tc main_arg2) = m ((c : Thread nD τ).loc main_arg2) :=
  (W3_arr m c 2).trans (((Dense.dat (V2 m) c).arrAt_in 2 rfl _).trans ((Dense.A_eq (V2 m) c 2).trans
    ((W2_of_ne m c main_arg2 (by decide)).trans (W1_of_ne m c main_arg2 (by decide)))))
theorem W3_main_arg3 (c : Dev nD) : W3 m c (Proc.devRef .tc main_arg3) = m ((c : Thread nD τ).loc main_arg3) :=
  (W3_arr m c 3).trans (((Dense.dat (V2 m) c).arrAt_in 3 rfl _).trans ((Dense.A_eq (V2 m) c 3).trans
    ((W2_of_ne m c main_arg3 (by decide)).trans (W1_of_ne m c main_arg3 (by decide)))))
theorem W3_main_arg4 (c : Dev nD) : W3 m c (Proc.devRef .tc main_arg4) = m ((c : Thread nD τ).loc main_arg4) :=
  (W3_arr m c 4).trans (((Dense.dat (V2 m) c).arrAt_in 4 rfl _).trans ((Dense.A_eq (V2 m) c 4).trans
    ((W2_of_ne m c main_arg4 (by decide)).trans (W1_of_ne m c main_arg4 (by decide)))))
/-- The result: what the dense region's one write-back leaves. -/
theorem W3_main_v2 (c : Dev nD) : W3 m c (Proc.devRef .tc main_v2) = (Dense.dat (V2 m) c).arrAt 5 cfg1.N := W3_arr m c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Pool.dat (V1 m) c
  | ⟨1, _⟩ => fun c => Dense.dat (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The pooling region: entered with every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Pool.body_obligation (V1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have key : (Pipeline.ΦA spec0 c : sProp 𝕄) ⊢ (iprop((∃ r, prngReg c r) ∗ emp ∗ Pipeline.scopedRest spec0 c) : sProp 𝕄) := by
      unfold Pipeline.ΦA
      iintro ⟨Hr, Hp⟩
      isplitl [Hp]; · iexact Hp
      isplitr; · iempintro
      iexact Hr
    exact (Pool.hout (V1 m) c).trans key
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dense region: entered with every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dense.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

theorem hostOps0_fresh : (hostOps0 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and any post that follows from "every unscoped buffer holds what the last boundary's contents say" holds of every final state. -/
theorem run (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W3 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := hQ)

/-- The run read at the result and the arguments: the result array ends at what the dense region's write-back leaves,
    the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v2) = (Dense.dat (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run m ρ fun s h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩

end Cert.ReferenceIdeal.Run

end
-- ==== Proof.PoolMath.lean ====
/-
  The pooling body's closed forms read at an index, at the ideal instance (a float an extended real, addition exact).

  A chunk q of a staging block, read at (r, c, l), is the block at (r, c, 128 q + l). Hence: a whole block added to
  the accumulator adds, at (r, c, l), the 32 block entries (r, c, 128 q + l), q < 32; the last block adds the two
  entries q = 0, 1; and the output block at (r, c) is the sum over the 128 lanes l of the accumulator at (r, c, l),
  times the mean factor.
-/
import proofs.«161419_g2000504122983038_pallasbulk_1167_5_alg».proof.Proof.PoolSums
import Idealize.ShloMosaic.PureOps.Ideal.Laws
import Idealize.ShloMosaic.Lib.ValueIdx

set_option maxRecDepth 16384

noncomputable section

namespace Cert.ReferenceIdeal.Pool

open Cert.ReferenceIdeal Cert.ReferenceIdeal.Gen
open Idealize.ShloMosaic Idealize.ShloMosaic.ValueIdx

/-- The mean factor: the 32-bit word the body multiplies the lane sums by, as it reads at the ideal instance. -/
abbrev meanFactor : EReal := Ideal.ofBits .f32 0x38A72F05#32

/-- Entry 128 q + l of row (r, c) of a staging block (the position wrapped into range, so that it is an index for every q). -/
def lane (y : S8x128x128.Idx) (q : ℕ) : S8x128x4096.Idx :=
  ix3 (y 0) (y 1) ⟨(128 * q + (y 2).val) % 4096, Nat.mod_lt _ (by norm_num)⟩

/-- Chunk q of a block, read at an index. -/
theorem ld_chunk (X : Vec Ideal S8x128x4096 .f32) (off : ℕ)
    (inb : ∀ a, (![0, 0, off] : Fin 3 → Nat) a + S8x128x128.size a ≤ S8x128x4096.size a) (q : ℕ) (hq : off = 128 * q) (hlt : q < 32)
    (y : S8x128x128.Idx) :
    View.ld X (Rect.unit (s := S8x128x4096) ![0, 0, off] S8x128x128.size inb) y = X (lane y q) := by
  refine congrArg X (funext fun a => Fin.ext ?_)
  match a with
  | ⟨0, _⟩ => show 0 + 1 * (y 0).val = (y 0).val; omega
  | ⟨1, _⟩ => show 0 + 1 * (y 1).val = (y 1).val; omega
  | ⟨2, _⟩ =>
    show off + 1 * (y 2).val = (128 * q + (y 2).val) % 4096
    have h2 : (y 2).val < 128 := (y 2).isLt
    omega

set_option maxHeartbeats 1600000 in
/-- A whole block added: at each entry the 32 chunk entries are added. -/
theorem bulkSum_apply (acc : Vec Ideal S8x128x128 .f32) (X : Vec Ideal S8x128x4096 .f32) (y : S8x128x128.Idx) :
    bulkSum (F := Ideal) acc X y = acc y + ∑ q ∈ Finset.range 32, X (lane y q) := by
  have e : bulkSum (F := Ideal) acc X y
      = acc y + (X (lane y 0) + X (lane y 1) + X (lane y 2) + X (lane y 3) + X (lane y 4) + X (lane y 5) + X (lane y 6) + X (lane y 7) + X (lane y 8) + X (lane y 9) + X (lane y 10) + X (lane y 11) + X (lane y 12) + X (lane y 13) + X (lane y 14) + X (lane y 15) + X (lane y 16) + X (lane y 17) + X (lane y 18) + X (lane y 19) + X (lane y 20) + X (lane y 21) + X (lane y 22) + X (lane y 23) + X (lane y 24) + X (lane y 25) + X (lane y 26) + X (lane y 27) + X (lane y 28) + X (lane y 29) + X (lane y 30) + X (lane y 31)) := by
    unfold bulkSum k0_pay2 k0_pay9 k0_pay7 k0_pay5 k0_pay6 k0_pay8 k0_pay10
    simp only [shapeCast_self, addf_apply]
    rw [ld_chunk X 0 _ 0 (by decide) (by decide) y,
      ld_chunk X 128 _ 1 (by decide) (by decide) y,
      ld_chunk X 256 _ 2 (by decide) (by decide) y,
      ld_chunk X 384 _ 3 (by decide) (by decide) y,
      ld_chunk X 512 _ 4 (by decide) (by decide) y,
      ld_chunk X 640 _ 5 (by decide) (by decide) y,
      ld_chunk X 768 _ 6 (by decide) (by decide) y,
      ld_chunk X 896 _ 7 (by decide) (by decide) y,
      ld_chunk X 1024 _ 8 (by decide) (by decide) y,
      ld_chunk X 1152 _ 9 (by decide) (by decide) y,
      ld_chunk X 1280 _ 10 (by decide) (by decide) y,
      ld_chunk X 1408 _ 11 (by decide) (by decide) y,
      ld_chunk X 1536 _ 12 (by decide) (by decide) y,
      ld_chunk X 1664 _ 13 (by decide) (by decide) y,
      ld_chunk X 1792 _ 14 (by decide) (by decide) y,
      ld_chunk X 1920 _ 15 (by decide) (by decide) y,
      ld_chunk X 2048 _ 16 (by decide) (by decide) y,
      ld_chunk X 2176 _ 17 (by decide) (by decide) y,
      ld_chunk X 2304 _ 18 (by decide) (by decide) y,
      ld_chunk X 2432 _ 19 (by decide) (by decide) y,
      ld_chunk X 2560 _ 20 (by decide) (by decide) y,
      ld_chunk X 2688 _ 21 (by decide) (by decide) y,
      ld_chunk X 2816 _ 22 (by decide) (by decide) y,
      ld_chunk X 2944 _ 23 (by decide) (by decide) y,
      ld_chunk X 3072 _ 24 (by decide) (by decide) y,
      ld_chunk X 3200 _ 25 (by decide) (by decide) y,
      ld_chunk X 3328 _ 26 (by decide) (by decide) y,
      ld_chunk X 3456 _ 27 (by decide) (by decide) y,
      ld_chunk X 3584 _ 28 (by decide) (by decide) y,
      ld_chunk X 3712 _ 29 (by decide) (by decide) y,
      ld_chunk X 3840 _ 30 (by decide) (by decide) y,
      ld_chunk X 3968 _ 31 (by decide) (by decide) y]
    ac_rfl
  rw [e]
  simp only [Finset.sum_range_succ, Finset.sum_range_zero, zero_add]

/-- The last block's two chunks inside the array added. -/
theorem tailSum_apply (acc : Vec Ideal S8x128x128 .f32) (X : Vec Ideal S8x128x4096 .f32) (y : S8x128x128.Idx) :
    tailSum (F := Ideal) acc X y = acc y + (X (lane y 0) + X (lane y 1)) := by
  unfold tailSum k0_pay3
  simp only [shapeCast_self, addf_apply]
  rw [ld_chunk X 0 _ 0 (by decide) (by decide) y, ld_chunk X 128 _ 1 (by decide) (by decide) y]

/-- The zero block the accumulator starts from. -/
theorem zeroBlock_apply (y : S8x128x128.Idx) : k0_pay1 (F := Ideal) y = 0 := by
  unfold k0_pay1
  simp only [shapeCast_self]
  show Ideal.ofBits .f32 0x00000000#32 = 0
  exact Ideal.ofBits_zero_f32

/-- A sum over the last axis of an [8, 128, 128] block, read at (r, c): the sum over the 128 lanes. -/
theorem laneSum_at (acc : FVec Ideal S8x128x128 .f32) (h : S8x128x128.Reduces [2] S8x128) (hφ : FKind.Formats .f32)
    (hacc : (0x00000000#32 : BitVec 32) = 0x00000000#32) (r : Fin 8) (c : Fin 128) :
    multiReduction .add [2] S8x128 acc 0x00000000#32 h hφ hacc (ix2 r c) = ∑ l : Fin 128, acc (ix3 r c l) :=
  (Ideal.multiReduction_add_single acc 0x00000000#32 h hφ hacc (ix2 r c)).trans
    (Finset.sum_congr rfl fun l _ => congrArg acc (funext fun a => Fin.ext (by
      match a with
      | ⟨0, _⟩ => rfl
      | ⟨1, _⟩ => rfl
      | ⟨2, _⟩ => rfl)))

/-- The output block: the accumulator's 128 lanes summed, times the mean factor. -/
theorem laneMean_apply (acc : Vec Ideal S8x128x128 .f32) (r : Fin 8) (c : Fin 128) :
    laneMean (F := Ideal) acc (ix2 r c) = (∑ l : Fin 128, acc (ix3 r c l)) * meanFactor := by
  unfold laneMean k0_pay4
  simp only [mulf_apply, broadcast_apply]
  exact congrArg (fun z : EReal => z * meanFactor) (laneSum_at acc _ _ _ r c)

end Cert.ReferenceIdeal.Pool

end
-- ==== Proof.ThetaValue.lean ====
/-
  The pooled means the first kernel of the reference leaves, as one function of the flat input [16, 256, 12544].

  The staging block at point t = (i, j, k), read at (r, ch, p) inside the array, is the flat input at
  (8 i + r, 128 j + ch, 4096 k + p). The accumulator at the last of an (i, j)'s four points therefore holds, at
  (r, ch, l), the sum over the 98 chunks s of the flat input at (8 i + r, 128 j + ch, 128 s + l): chunks 0..31 from
  k = 0, 32..63 from k = 1, 64..95 from k = 2, 96 and 97 from k = 3. The output block is its lane sum times the mean factor.
-/
import proofs.«161419_g2000504122983038_pallasbulk_1167_5_alg».proof.Proof.PoolData
import proofs.«161419_g2000504122983038_pallasbulk_1167_5_alg».proof.Proof.PoolMath
import Idealize.ShloMosaic.Lib.Pipeline.Value

set_option maxRecDepth 16384

noncomputable section

namespace Cert.ReferenceIdeal.Pool

open Cert.ReferenceIdeal Cert.ReferenceIdeal.Gen
open Idealize.ShloMosaic Idealize.ShloMosaic.TcCoe Idealize.ShloMosaic.ValueIdx
open Idealize.ShloMosaic.Pipeline (Dat Window)

variable (V : (c : Dev nD) → (b : Ref sig .tc) → Buf (Elt Ideal) ((c : Thread nD τ).loc b))

/-- An index of the flat input from three numbers (each wrapped into range, so that it is an index whatever they are). -/
def flatAt (n ch p : ℕ) : S16x256x12544.Idx :=
  ix3 ⟨n % 16, Nat.mod_lt _ (by norm_num)⟩ ⟨ch % 256, Nat.mod_lt _ (by norm_num)⟩ ⟨p % 12544, Nat.mod_lt _ (by norm_num)⟩

/-- Row (n, ch) of the flat input as the region finds it, by position. -/
def rowAt (c : Dev nD) (n ch : ℕ) : ℕ → EReal := fun p => V c main_v0 (flatAt n ch p)

/-- The printed index maps, decided over the grid. -/
theorem idx_facts : ∀ t : Fin cfg0.N, win0_0.index t (0 : Fin 3) = t.val / 8 ∧ win0_0.index t (1 : Fin 3) = t.val / 4 % 2 ∧ win0_0.index t (2 : Fin 3) = t.val % 4
    ∧ win0_1.index t (0 : Fin 2) = t.val / 8 ∧ win0_1.index t (1 : Fin 2) = t.val / 4 % 2 :=
  (by decide +kernel : ∀ t : Fin grid0.N, _)

/-- The staged block at an index inside the array is the flat input there. -/
theorem staged_at (c : Dev nD) (t : Fin cfg0.N) (d : S8x128x4096.Idx → EReal) (y : S8x128x4096.Idx)
    (hm : win0_0.moved (grid0.coords t) y = true) :
    staged V c t d y = rowAt V c (8 * (t.val / 8) + (y 0).val) (128 * (t.val / 4 % 2) + (y 1).val) (4096 * (t.val % 4) + (y 2).val) := by
  obtain ⟨e0, e1, e2, -, -⟩ := idx_facts t
  have hN : t.val < 16 := lt_of_lt_of_eq t.isLt (show cfg0.N = 16 from N_0)
  have h0 : (y 0).val < 8 := (y 0).isLt
  have h1 : (y 1).val < 128 := (y 1).isLt
  have h2 : (y 2).val < 4096 := (y 2).isLt
  have h2' : t.val % 4 = 3 → (y 2).val < 256 := fun h3 => by
    have := (win0_0.moved_iff _ y).mp hm 2
    rw [(cut_sizes t h3).2.2] at this; exact this
  unfold staged Window.fill; rw [dif_pos hm]
  unfold rowAt
  show V c main_v0 (((cfg0.win 0).blk t).view.emb _) = _
  refine congrArg (V c main_v0) (funext fun a => Fin.ext ?_)
  match a with
  | ⟨0, _⟩ => show win0_0.index t (0 : Fin 3) * 8 + 1 * (y 0).val = (8 * (t.val / 8) + (y 0).val) % 16; omega
  | ⟨1, _⟩ => show win0_0.index t (1 : Fin 3) * 128 + 1 * (y 1).val = (128 * (t.val / 4 % 2) + (y 1).val) % 256; omega
  | ⟨2, _⟩ =>
    show win0_0.index t (2 : Fin 3) * 4096 + 1 * (y 2).val = (4096 * (t.val % 4) + (y 2).val) % 12544
    by_cases h3 : t.val % 4 = 3
    · have := h2' h3; omega
    · omega

/-- A chunk entry is inside the array: any of the 32 chunks at a point with k < 3, the first two at k = 3. -/
theorem lane_moved (t : Fin cfg0.N) (y : S8x128x128.Idx) (q : ℕ) (hq : if t.val % 4 = 3 then q < 2 else q < 32) :
    win0_0.moved (grid0.coords t) (lane y q) = true := by
  refine (win0_0.moved_iff _ _).mpr fun a => ?_
  have h0 : (y 0).val < 8 := (y 0).isLt
  have h1 : (y 1).val < 128 := (y 1).isLt
  have h2 : (y 2).val < 128 := (y 2).isLt
  by_cases h3 : t.val % 4 = 3
  · obtain ⟨s0, s1, s2⟩ := cut_sizes t h3
    rw [if_pos h3] at hq
    match a with
    | ⟨0, _⟩ => refine lt_of_lt_of_eq ?_ s0.symm; exact h0
    | ⟨1, _⟩ => refine lt_of_lt_of_eq ?_ s1.symm; exact h1
    | ⟨2, _⟩ => refine lt_of_lt_of_eq ?_ s2.symm; show (128 * q + (y 2).val) % 4096 < 256; omega
  · have := ((lane y q) a).isLt
    unfold Window.xsize; rw [uncut t h3 a]; exact this

/-- A chunk entry of the staged block, as the flat input. -/
theorem staged_lane (c : Dev nD) (t : Fin cfg0.N) (d : S8x128x4096.Idx → EReal) (r : Fin 8) (ch : Fin 128) (l : Fin 128) (q : ℕ)
    (hq : if t.val % 4 = 3 then q < 2 else q < 32) :
    staged V c t d (lane (ix3 r ch l) q)
      = rowAt V c (8 * (t.val / 8) + r.val) (128 * (t.val / 4 % 2) + ch.val) (4096 * (t.val % 4) + 128 * q + l.val) := by
  rw [staged_at V c t d _ (lane_moved t _ q hq)]
  have hq' : q < 32 := by split at hq <;> omega
  have hl : l.val < 128 := l.isLt
  refine congrArg (rowAt V c _ _) ?_
  show 4096 * (t.val % 4) + (128 * q + l.val) % 4096 = 4096 * (t.val % 4) + 128 * q + l.val
  omega

/-- A whole block's 32 chunks at (r, ch, l), as the flat input's positions. -/
theorem bulk_row (c : Dev nD) (t : Fin cfg0.N) (h3 : t.val % 4 ≠ 3) (d : S8x128x4096.Idx → EReal) (r : Fin 8) (ch : Fin 128) (l : Fin 128) :
    ∑ q ∈ Finset.range 32, staged V c t d (lane (ix3 r ch l) q)
      = ∑ q ∈ Finset.range 32, rowAt V c (8 * (t.val / 8) + r.val) (128 * (t.val / 4 % 2) + ch.val) (4096 * (t.val % 4) + 128 * q + l.val) :=
  Finset.sum_congr rfl fun q hq => staged_lane V c t d r ch l q (by rw [if_neg h3]; exact Finset.mem_range.mp hq)

/-- THE ACCUMULATOR AT A FLUSHING POINT: at (r, ch, l) the sum over the 98 chunks of the row's positions 128 s + l. -/
theorem acc_flush (c : Dev nD) (t : Fin cfg0.N) (h3 : t.val % 4 = 3) (r : Fin 8) (ch : Fin 128) (l : Fin 128) :
    accAt V c t.val t.isLt (ix3 r ch l)
      = ∑ s ∈ Finset.range 98, rowAt V c (8 * (t.val / 8) + r.val) (128 * (t.val / 4 % 2) + ch.val) (128 * s + l.val) := by
  have hN : t.val < 16 := lt_of_lt_of_eq t.isLt (show cfg0.N = 16 from N_0)
  have hlt : ∀ k, k ≤ 3 → t.val - k < cfg0.N := fun k _ => lt_of_le_of_lt (Nat.sub_le _ _) t.isLt
  -- the four points of this (i, j)
  let t1 : Fin cfg0.N := ⟨t.val - 1, hlt 1 (by omega)⟩
  let t2 : Fin cfg0.N := ⟨t.val - 2, hlt 2 (by omega)⟩
  let t3 : Fin cfg0.N := ⟨t.val - 3, hlt 3 (by omega)⟩
  have a0 : accAt V c t.val t.isLt = tailSum (accAt V c t1.val t1.isLt) (staged V c t filler) :=
    accAt_last V c t (by omega) h3
  have a1 : accAt V c t1.val t1.isLt = bulkSum (accAt V c t2.val t2.isLt) (staged V c t1 filler) :=
    (accAt_middle V c t1 (by show ¬(t.val - 1) % 4 = 0; omega) (by show ¬(t.val - 1) % 4 = 3; omega)).trans
      (by show bulkSum (accAt V c (t.val - 1 - 1) _) _ = bulkSum (accAt V c (t.val - 2) _) _
          congr 2)
  have a2 : accAt V c t2.val t2.isLt = bulkSum (accAt V c t3.val t3.isLt) (staged V c t2 filler) :=
    (accAt_middle V c t2 (by show ¬(t.val - 2) % 4 = 0; omega) (by show ¬(t.val - 2) % 4 = 3; omega)).trans
      (by show bulkSum (accAt V c (t.val - 2 - 1) _) _ = bulkSum (accAt V c (t.val - 3) _) _
          congr 2)
  have a3 : accAt V c t3.val t3.isLt = bulkSum (k0_pay1 (F := Ideal)) (staged V c t3 filler) :=
    accAt_first V c t3 (by show (t.val - 3) % 4 = 0; omega)
  rw [a0, tailSum_apply, a1, bulkSum_apply, a2, bulkSum_apply, a3, bulkSum_apply, zeroBlock_apply, zero_add,
    bulk_row V c t3 (by show (t.val - 3) % 4 ≠ 3; omega), bulk_row V c t2 (by show (t.val - 2) % 4 ≠ 3; omega),
    bulk_row V c t1 (by show (t.val - 1) % 4 ≠ 3; omega),
    staged_lane V c t (filler (F := Ideal)) r ch l 0 (by rw [if_pos h3]; omega), staged_lane V c t (filler (F := Ideal)) r ch l 1 (by rw [if_pos h3]; omega)]
  -- all four points share the row: their (i, j) is t's
  have e1 : (t1.val / 8 = t.val / 8 ∧ t1.val / 4 % 2 = t.val / 4 % 2 ∧ t1.val % 4 = 2) := by
    show ((t.val - 1) / 8 = t.val / 8 ∧ (t.val - 1) / 4 % 2 = t.val / 4 % 2 ∧ (t.val - 1) % 4 = 2); omega
  have e2 : (t2.val / 8 = t.val / 8 ∧ t2.val / 4 % 2 = t.val / 4 % 2 ∧ t2.val % 4 = 1) := by
    show ((t.val - 2) / 8 = t.val / 8 ∧ (t.val - 2) / 4 % 2 = t.val / 4 % 2 ∧ (t.val - 2) % 4 = 1); omega
  have e3 : (t3.val / 8 = t.val / 8 ∧ t3.val / 4 % 2 = t.val / 4 % 2 ∧ t3.val % 4 = 0) := by
    show ((t.val - 3) / 8 = t.val / 8 ∧ (t.val - 3) / 4 % 2 = t.val / 4 % 2 ∧ (t.val - 3) % 4 = 0); omega
  rw [e1.1, e1.2.1, e1.2.2, e2.1, e2.2.1, e2.2.2, e3.1, e3.2.1, e3.2.2, h3]
  generalize rowAt V c (8 * (t.val / 8) + r.val) (128 * (t.val / 4 % 2) + ch.val) = f
  -- 98 = 32 + 32 + 32 + 2 chunks
  rw [show (98 : ℕ) = 32 + 32 + 32 + 2 from rfl, Finset.sum_range_add, Finset.sum_range_add, Finset.sum_range_add]
  have c0 : ∑ q ∈ Finset.range 32, f (4096 * 0 + 128 * q + l.val) = ∑ x ∈ Finset.range 32, f (128 * x + l.val) :=
    Finset.sum_congr rfl fun q _ => congrArg f (by omega)
  have c1 : ∑ q ∈ Finset.range 32, f (4096 * 1 + 128 * q + l.val) = ∑ x ∈ Finset.range 32, f (128 * (32 + x) + l.val) :=
    Finset.sum_congr rfl fun q _ => congrArg f (by omega)
  have c2 : ∑ q ∈ Finset.range 32, f (4096 * 2 + 128 * q + l.val) = ∑ x ∈ Finset.range 32, f (128 * (32 + 32 + x) + l.val) :=
    Finset.sum_congr rfl fun q _ => congrArg f (by omega)
  have c34 : f (4096 * 3 + 128 * 0 + l.val) + f (4096 * 3 + 128 * 1 + l.val) = ∑ x ∈ Finset.range 2, f (128 * (32 + 32 + 32 + x) + l.val) := by
    rw [Finset.sum_range_succ, Finset.sum_range_succ, Finset.sum_range_zero, zero_add]
  rw [c0, c1, c2, c34]

/-- The pooled means [16, 256]: at (n, ch) the sum over lanes and chunks of row (n, ch) of the flat input, times the mean factor. -/
def thetaArr (c : Dev nD) : S16x256.Idx → EReal := fun i =>
  (∑ l : Fin 128, ∑ s ∈ Finset.range 98, rowAt V c (i 0).val (i 1).val (128 * s + l.val)) * meanFactor

/-- WHAT A FLUSHING POINT WRITES BACK is its block of `thetaArr`. -/
theorem flushed_eq (c : Dev nD) (t : Fin cfg0.N) (hf : (cfg0.win 1).flush t = true) :
    (dat V c).flushed 1 t = ((cfg0.win 1).blk t).view.read (Elt Ideal) (thetaArr V c) := by
  have h3 : t.val % 4 = 3 := (flush0_1 t).mp hf
  obtain ⟨-, -, -, e0, e1⟩ := idx_facts t
  show (cfg0.win 1).cut (grid0.coords t) ((dat V c).after 1 t) = _
  rw [after_out]
  funext j
  obtain ⟨r, ch, rfl⟩ : ∃ (r : Fin 8) (ch : Fin 128), j = ix2 r ch := ⟨j 0, j 1, eq_ix2 j⟩
  show laneMean (F := Ideal) (accAt V c t.val t.isLt) (ix2 r ch) = thetaArr V c (((cfg0.win 1).blk t).view.emb (ix2 r ch))
  rw [laneMean_apply]
  unfold thetaArr
  have hn : ((((cfg0.win 1).blk t).view.emb (ix2 r ch)) 0).val = 8 * (t.val / 8) + r.val := by
    show win0_1.index t (0 : Fin 2) * 8 + 1 * r.val = _; omega
  have hc : ((((cfg0.win 1).blk t).view.emb (ix2 r ch)) 1).val = 128 * (t.val / 4 % 2) + ch.val := by
    show win0_1.index t (1 : Fin 2) * 128 + 1 * ch.val = _; omega
  rw [hn, hc]
  exact congrArg (fun z : EReal => z * meanFactor) (Finset.sum_congr rfl fun l _ => acc_flush V c t h3 r ch l)

theorem mem_blk (t : Fin cfg0.N) (i : S16x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- Every index of the pooled array is in the block of the last point of its (i, j). -/
theorem cover (i : S16x256.Idx) : ∃ t : Fin cfg0.N, (cfg0.win 1).flush t = true ∧ i ∈ ((cfg0.win 1).blk t).view.set := by
  have hi0 : (i 0).val < 16 := (i 0).isLt
  have hi1 : (i 1).val < 256 := (i 1).isLt
  have hlt : 8 * ((i 0).val / 8) + 4 * ((i 1).val / 128) + 3 < cfg0.N := by rw [show cfg0.N = 16 from N_0]; omega
  refine ⟨⟨8 * ((i 0).val / 8) + 4 * ((i 1).val / 128) + 3, hlt⟩, (flush0_1 _).mpr (by show (8 * ((i 0).val / 8) + 4 * ((i 1).val / 128) + 3) % 4 = 3; omega), ?_⟩
  rw [mem_blk]
  obtain ⟨-, -, -, e0, e1⟩ := idx_facts ⟨8 * ((i 0).val / 8) + 4 * ((i 1).val / 128) + 3, hlt⟩
  intro a
  match a with
  | ⟨0, _⟩ =>
    show win0_1.index _ (0 : Fin 2) * 8 ≤ (i 0).val ∧ (i 0).val < win0_1.index _ (0 : Fin 2) * 8 + 8
    rw [e0]; show (8 * ((i 0).val / 8) + 4 * ((i 1).val / 128) + 3) / 8 * 8 ≤ (i 0).val ∧ (i 0).val < (8 * ((i 0).val / 8) + 4 * ((i 1).val / 128) + 3) / 8 * 8 + 8; omega
  | ⟨1, _⟩ =>
    show win0_1.index _ (1 : Fin 2) * 128 ≤ (i 1).val ∧ (i 1).val < win0_1.index _ (1 : Fin 2) * 128 + 128
    rw [e1]; show (8 * ((i 0).val / 8) + 4 * ((i 1).val / 128) + 3) / 4 % 2 * 128 ≤ (i 1).val ∧ (i 1).val < (8 * ((i 0).val / 8) + 4 * ((i 1).val / 128) + 3) / 4 % 2 * 128 + 128; omega

/-- THE POOLED ARRAY after the region. -/
theorem final (c : Dev nD) : (dat V c).arrAt 1 cfg0.N = thetaArr V c :=
  (dat V c).arrAt_eq_of_cover 1 (thetaArr V c) (fun t hf => flushed_eq V c t hf) cover

end Cert.ReferenceIdeal.Pool

end
-- ==== Proof.DenseValue.lean ====
/-
  The dense kernel of the reference, read at an index, and the result array it leaves.

  Its payload at (n, o) is the specification's `head` over the pre-activations "∑_c means[n, c] · w1[c, k] + b1[k]".
  Every window is the whole of its array, so the one point's blocks are the arrays as the region finds them and the
  result array is the payload of those arrays.
-/
import proofs.«161419_g2000504122983038_pallasbulk_1167_5_alg».proof.Proof.FcRegion
import proofs.«161419_g2000504122983038_pallasbulk_1167_5_alg».proof.Proof.Spec
import proofs.«161419_g2000504122983038_pallasbulk_1167_5_alg».proof.Proof.LibSplitContraction
import Idealize.ShloMosaic.Lib.ValueLayout
import Idealize.ShloMosaic.Lib.Pipeline.Value

set_option maxRecDepth 16384

noncomputable section

namespace Cert.ReferenceIdeal.Dense

open Cert.ReferenceIdeal Cert.ReferenceIdeal.Gen
open Idealize.ShloMosaic Idealize.ShloMosaic.TcCoe Idealize.ShloMosaic.ValueIdx
open Idealize.ShloMosaic.Pipeline (Dat Window)

/-- The hidden layer: the means contracted with the first weight matrix, the bias row added to every row. -/
theorem hidden_at (v0 : FVec Ideal S16x256 .f32) (h0 : S16x256.ShapeCasts S16x256) (v2 : FVec Ideal S256x16 .f32) (v4 : FVec Ideal S1x16 .f32)
    (hb : S1x16.Broadcasts S16x16) (n : Fin 16) (k : Fin 16) :
    addf (matmul dot_S16x256_S256x16_S16x16_1_0_0_1_n_n none (shapeCast S16x256 v0 h0) v2 (constant S16x16 .f32 0x00000000#32))
        (broadcastTo S16x16 v4 hb) (ix2 n k)
      = (∑ c : Fin 256, v0 (ix2 n c) * v2 (ix2 c k)) + v4 (ix2 (0 : Fin 1) k) := by
  simp only [addf_apply, matmul, shapeCast_self]
  rw [Cert.Lib.SplitContraction.matmul_zero_at dot_S16x256_S256x16_S16x16_1_0_0_1_n_n rfl rfl (fun _ _ => rfl) (fun _ _ => rfl)
    (fun _ _ => rfl) (fun _ _ => rfl) none v0 v2 n k, broadcastTo_1b_ab_apply v4 hb n k]

/-- The head: the rectifier, the second contraction, the bias row, and 2 · logistic − 1. -/
theorem out_at (pre : FVec Ideal S16x16 .f32) (v9 : FVec Ideal S16x8 .f32) (v11 : FVec Ideal S1x8 .f32) (hb : S1x8.Broadcasts S16x8) (n : Fin 16) (o : Fin 8) :
    subf (mulf (broadcast S16x8 (Scalar.ofBits .f32 0x40000000#32))
        (logistic (addf (matmul dot_S16x16_S16x8_S16x8_1_0_0_1_n_n none (maximumf pre (broadcast S16x16 (Scalar.ofBits .f32 0x00000000#32))) v9
          (constant S16x8 .f32 0x00000000#32)) (broadcastTo S16x8 v11 hb))))
        (broadcast S16x8 (Scalar.ofBits .f32 0x3F800000#32)) (ix2 n o)
      = Spec.head (fun k => pre (ix2 n k)) v9 v11 o := by
  unfold Spec.head
  simp only [subf_apply, mulf_apply, addf_apply, broadcast_apply, logistic, matmul]
  rw [Cert.Lib.SplitContraction.matmul_zero_at dot_S16x16_S16x8_S16x8_1_0_0_1_n_n rfl rfl (fun _ _ => rfl) (fun _ _ => rfl)
    (fun _ _ => rfl) (fun _ _ => rfl) none _ v9 n o, broadcastTo_1b_ab_apply v11 hb n o]
  simp only [maximumf_apply, broadcast_apply]
  rfl

/-- The payload at (n, o). -/
theorem pay_at (v0 : Vec Ideal S16x256 .f32) (v2 : Vec Ideal S256x16 .f32) (v4 : Vec Ideal S1x16 .f32)
    (v9 : Vec Ideal S16x8 .f32) (v11 : Vec Ideal S1x8 .f32) (n : Fin 16) (o : Fin 8) :
    k1_pay1 (F := Ideal) v0 v2 v4 v9 v11 (ix2 n o)
      = Spec.head (fun k => (∑ c : Fin 256, v0 (ix2 n c) * v2 (ix2 c k)) + v4 (ix2 (0 : Fin 1) k)) v9 v11 o := by
  unfold k1_pay1
  refine (out_at _ v9 v11 _ n o).trans ?_
  exact congrArg (fun pre => Spec.head pre v9 v11 o) (funext fun k => hidden_at v0 _ v2 v4 _ n k)

variable (V : (c : Dev nD) → (b : Ref sig .tc) → Buf (Elt Ideal) ((c : Thread nD τ).loc b))

theorem hz2 : (![0, 0] : Fin 2 → Nat) = fun _ => 0 := funext fun a => by fin_cases a <;> rfl

/-- Every block index of the one point is zero. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Each input block is its array. -/
theorem iblk0_eq (c : Dev nD) (t : Fin cfg1.N) : (iblk V c 0 t : S16x256.Idx → EReal) = V c main_v1 := by
  obtain ⟨e0, e1, -⟩ := idx_facts t
  funext j
  show V c main_v1 (((cfg1.win 0).blk t).view.emb j) = V c main_v1 j
  refine congrArg (V c main_v1) (funext fun x => Fin.ext ?_)
  match x with
  | ⟨0, _⟩ => show win1_0.index t (0 : Fin 2) * 16 + 1 * (j 0).val = (j 0).val; omega
  | ⟨1, _⟩ => show win1_0.index t (1 : Fin 2) * 256 + 1 * (j 1).val = (j 1).val; omega
theorem iblk1_eq (c : Dev nD) (t : Fin cfg1.N) : (iblk V c 1 t : S256x16.Idx → EReal) = V c main_arg1 := by
  obtain ⟨-, -, e0, e1, -⟩ := idx_facts t
  funext j
  show V c main_arg1 (((cfg1.win 1).blk t).view.emb j) = V c main_arg1 j
  refine congrArg (V c main_arg1) (funext fun x => Fin.ext ?_)
  match x with
  | ⟨0, _⟩ => show win1_1.index t (0 : Fin 2) * 256 + 1 * (j 0).val = (j 0).val; omega
  | ⟨1, _⟩ => show win1_1.index t (1 : Fin 2) * 16 + 1 * (j 1).val = (j 1).val; omega
theorem iblk2_eq (c : Dev nD) (t : Fin cfg1.N) : (iblk V c 2 t : S1x16.Idx → EReal) = V c main_arg2 := by
  obtain ⟨-, -, -, -, e0, e1, -⟩ := idx_facts t
  funext j
  show V c main_arg2 (((cfg1.win 2).blk t).view.emb j) = V c main_arg2 j
  refine congrArg (V c main_arg2) (funext fun x => Fin.ext ?_)
  match x with
  | ⟨0, _⟩ => show win1_2.index t (0 : Fin 2) * 1 + 1 * (j 0).val = (j 0).val; omega
  | ⟨1, _⟩ => show win1_2.index t (1 : Fin 2) * 16 + 1 * (j 1).val = (j 1).val; omega
theorem iblk3_eq (c : Dev nD) (t : Fin cfg1.N) : (iblk V c 3 t : S16x8.Idx → EReal) = V c main_arg3 := by
  obtain ⟨-, -, -, -, -, -, e0, e1, -⟩ := idx_facts t
  funext j
  show V c main_arg3 (((cfg1.win 3).blk t).view.emb j) = V c main_arg3 j
  refine congrArg (V c main_arg3) (funext fun x => Fin.ext ?_)
  match x with
  | ⟨0, _⟩ => show win1_3.index t (0 : Fin 2) * 16 + 1 * (j 0).val = (j 0).val; omega
  | ⟨1, _⟩ => show win1_3.index t (1 : Fin 2) * 8 + 1 * (j 1).val = (j 1).val; omega
theorem iblk4_eq (c : Dev nD) (t : Fin cfg1.N) : (iblk V c 4 t : S1x8.Idx → EReal) = V c main_arg4 := by
  obtain ⟨-, -, -, -, -, -, -, -, e0, e1, -⟩ := idx_facts t
  funext j
  show V c main_arg4 (((cfg1.win 4).blk t).view.emb j) = V c main_arg4 j
  refine congrArg (V c main_arg4) (funext fun x => Fin.ext ?_)
  match x with
  | ⟨0, _⟩ => show win1_4.index t (0 : Fin 2) * 1 + 1 * (j 0).val = (j 0).val; omega
  | ⟨1, _⟩ => show win1_4.index t (1 : Fin 2) * 8 + 1 * (j 1).val = (j 1).val; omega

/-- The result array [16, 8]: the payload of the arrays as the region finds them. -/
def denseArr (c : Dev nD) : S16x8.Idx → EReal :=
  k1_pay1 (F := Ideal) (V c main_v1) (V c main_arg1) (V c main_arg2) (V c main_arg3) (V c main_arg4)

/-- WHAT THE POINT WRITES BACK is the whole of `denseArr`. -/
theorem flushed_eq (c : Dev nD) (t : Fin cfg1.N) :
    (dat V c).flushed 5 t = ((cfg1.win 5).blk t).view.read (Elt Ideal) (denseArr V c) := by
  show (cfg1.win 5).cut (grid1.coords t) ((dat V c).after 5 t) = _
  rw [after_5]
  unfold result
  rw [View.canon_unit_zero hz2]
  simp only [View.ld_unit_zero (S := S16x256) hz2, View.ld_unit_zero (S := S256x16) hz2, View.ld_unit_zero (S := S1x16) hz2,
    View.ld_unit_zero (S := S16x8) hz2, View.ld_unit_zero (S := S1x8) hz2]
  obtain ⟨-, -, -, -, -, -, -, -, -, -, e0, e1⟩ := idx_facts t
  funext j
  show k1_pay1 (F := Ideal) (iblk V c 0 t : S16x256.Idx → EReal) (iblk V c 1 t : S256x16.Idx → EReal) (iblk V c 2 t : S1x16.Idx → EReal)
      (iblk V c 3 t : S16x8.Idx → EReal) (iblk V c 4 t : S1x8.Idx → EReal) _ = denseArr V c (((cfg1.win 5).blk t).view.emb j)
  rw [iblk0_eq, iblk1_eq, iblk2_eq, iblk3_eq, iblk4_eq]
  unfold denseArr
  refine congrArg _ (funext fun x => Fin.ext ?_)
  match x with
  | ⟨0, _⟩ => show (j 0).val = win1_5.index t (0 : Fin 2) * 16 + 1 * (j 0).val; omega
  | ⟨1, _⟩ => show (j 1).val = win1_5.index t (1 : Fin 2) * 8 + 1 * (j 1).val; omega

theorem mem_blk (t : Fin cfg1.N) (i : S16x8.Idx) :
    i ∈ ((cfg1.win 5).blk t).view.set ↔ ∀ a : Fin 2, win1_5.index t a * S16x8.size a ≤ (i a).val ∧ (i a).val < win1_5.index t a * S16x8.size a + S16x8.size a := by
  show i ∈ ((View.whole main_v2).slice (win1_5.rect t)).set ↔ _
  rw [View.set_slice_whole, Rect.mem_set_unit]
  exact Iff.rfl

theorem cover (i : S16x8.Idx) : ∃ t : Fin cfg1.N, (cfg1.win 5).flush t = true ∧ i ∈ ((cfg1.win 5).blk t).view.set := by
  have hi0 : (i 0).val < 16 := (i 0).isLt
  have hi1 : (i 1).val < 8 := (i 1).isLt
  refine ⟨t1_0, flush1_5 _, ?_⟩
  rw [mem_blk]
  obtain ⟨-, -, -, -, -, -, -, -, -, -, e0, e1⟩ := idx_facts t1_0
  intro a
  match a with
  | ⟨0, _⟩ => show win1_5.index _ (0 : Fin 2) * 16 ≤ (i 0).val ∧ (i 0).val < win1_5.index _ (0 : Fin 2) * 16 + 16; simp only [e0]; omega
  | ⟨1, _⟩ => show win1_5.index _ (1 : Fin 2) * 8 ≤ (i 1).val ∧ (i 1).val < win1_5.index _ (1 : Fin 2) * 8 + 8; simp only [e1]; omega

/-- THE RESULT ARRAY after the region. -/
theorem final (c : Dev nD) : (dat V c).arrAt 5 cfg1.N = denseArr V c :=
  (dat V c).arrAt_eq_of_cover 5 (denseArr V c) (fun t _ => flushed_eq V c t) cover

end Cert.ReferenceIdeal.Dense

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.LibScaleAcrossSum.lean ====
/-
  Moving a real factor across a finite sum in the extended reals.

  In the extended reals multiplication does not distribute over addition in general: with a = 1, b = −1 and
  s = +∞,  (a + b) · s = 0 · ⊤ = 0  but  a · s + b · s = ⊤ + ⊥ = ⊥. When every summand and the factor are real
  numbers nothing of the kind happens: both sides are the coercion of a real sum. Two lemmas:

  * `coe_sum` — the coercion ℝ → EReal commutes with a finite sum;
  * `sum_mul_scale` — for real xₖ (given as extended reals that are real), real wₖ and a real s,
        (∑ₖ xₖ · wₖ) · s = ∑ₖ xₖ · (wₖ · s):
    scaling a finished contraction is contracting against scaled weights.
-/
import Idealize.ShloMosaic.PureOps.Ideal

namespace Cert.Lib.ScaleAcrossSum

/-- The coercion of the reals into the extended reals commutes with finite sums. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- Scaling a finished contraction is contracting against scaled weights, when the activations and the scale
    are real: both sides are the coercion of ∑ₖ xₖ · wₖ · s. -/
theorem sum_mul_scale {ι : Type*} [Fintype ι] (x : ι → EReal) (w : ι → ℝ) (s : EReal)
    (hx : ∀ k, ∃ r : ℝ, x k = (r : EReal)) (hs : ∃ r : ℝ, s = (r : EReal)) :
    (∑ k, x k * ((w k : ℝ) : EReal)) * s = ∑ k, x k * (((w k : ℝ) : EReal) * s) := by
  obtain ⟨s', rfl⟩ := hs
  choose x' hx' using hx
  simp only [hx', ← EReal.coe_mul, coe_sum]
  congr 1
  rw [Finset.sum_mul]
  exact Finset.sum_congr rfl fun k _ => by ring

end Cert.Lib.ScaleAcrossSum
-- ==== Proof.RefValue.lean ====
/-
  The reference's result is the specification of the arguments, when the inputs are real numbers.

  The flat input is the input reshaped, so row (n, ch) at position p is the input at (n, ch, p / 112, p mod 112). The
  pooled mean at (n, ch) — the sum over 128 lanes and 98 chunks of the row's positions 128 s + l, times the mean factor —
  is therefore the spatial sum times the mean factor: both sums run once over the row's 12544 positions, cut into 98 runs of
  128 on one side and 112 runs of 112 on the other. The dense kernel contracts these means with the first weight matrix;
  for real inputs the mean factor moves across that contraction, which is the specification's hidden pre-activation.
-/
import proofs.«161419_g2000504122983038_pallasbulk_1167_5_alg».proof.Proof.RefRun
import proofs.«161419_g2000504122983038_pallasbulk_1167_5_alg».proof.Proof.ThetaValue
import proofs.«161419_g2000504122983038_pallasbulk_1167_5_alg».proof.Proof.DenseValue
import proofs.«161419_g2000504122983038_pallasbulk_1167_5_alg».proof.Proof.LibSumRuns
import proofs.«161419_g2000504122983038_pallasbulk_1167_5_alg».proof.Proof.LibScaleAcrossSum
import Idealize.ShloMosaic.Lib.StableHlo.Run

set_option maxRecDepth 16384

noncomputable section

namespace Cert.ReferenceIdeal.RValue

open Cert.ReferenceIdeal Cert.ReferenceIdeal.Gen Cert.ReferenceIdeal.Run
open Idealize.ShloMosaic Idealize.ShloMosaic.TcCoe Idealize.ShloMosaic.ValueIdx
open Idealize.SL Idealize.SL.Sem

variable (m : (ℓ : Loc nD τ sig) → Buf (Elt Ideal) ℓ)

/-- The input array, at its literal shape. -/
abbrev xin (c : Dev nD) : S16x256x112x112.Idx → EReal := m ((c : Thread nD τ).loc main_arg0)

/-- The pooling region finds the input reshaped to [16, 256, 12544] in its window's array. -/
theorem V1_main_v0 (c : Dev nD) :
    (V1 m c main_v0 : S16x256x12544.Idx → EReal)
      = shapeCast S16x256x12544 (xin m c) shapeCasts_S16x256x112x112_S16x256x12544 := by
  show StableHlo.after hostOps0 (W0 m c) (Proc.devRef .tc main_v0) = _
  after_results
  rfl

/-- Row (n, ch) of the flat input at position p is the input at (n, ch, p / 112, p mod 112). -/
theorem rowAt_eq (c : Dev nD) (n : Fin 16) (ch : Fin 256) (p : ℕ) (hp : p < 12544) :
    Pool.rowAt (V1 m) c n.val ch.val p
      = xin m c (ix4 n ch ⟨p / 112, by omega⟩ ⟨p % 112, Nat.mod_lt _ (by norm_num)⟩) := by
  unfold Pool.rowAt
  rw [show V1 m c main_v0 (Pool.flatAt n.val ch.val p) = (V1 m c main_v0 : S16x256x12544.Idx → EReal) (Pool.flatAt n.val ch.val p) from rfl,
    V1_main_v0]
  refine shapeCast_apply (s := S16x256x112x112) (t := S16x256x12544) (xin m c) _ (Pool.flatAt n.val ch.val p)
    (ix4 n ch ⟨p / 112, by omega⟩ ⟨p % 112, Nat.mod_lt _ (by norm_num)⟩) ?_
  rw [Shape.rowMajor_val_four, Shape.rowMajor_val_three]
  have hn : n.val < 16 := n.isLt
  have hc : ch.val < 256 := ch.isLt
  show ((n.val * 256 + ch.val) * 112 + p / 112) * 112 + p % 112 = (n.val % 16 * 256 + ch.val % 256) * 12544 + p % 12544
  omega

/-- THE POOLED SUM: the sum over lanes and chunks of a row of the flat input is the input's spatial sum. -/
theorem pooled_eq (c : Dev nD) (n : Fin 16) (ch : Fin 256) :
    ∑ l : Fin 128, ∑ s ∈ Finset.range 98, Pool.rowAt (V1 m) c n.val ch.val (128 * s + l.val)
      = Spec.pooled (m ((c : Thread nD τ).loc main_arg0)) n ch := by
  -- the row, position by position
  let G : Fin 12544 → EReal := fun p =>
    xin m c (ix4 n ch ⟨p.val / 112, by have := p.isLt; omega⟩ ⟨p.val % 112, Nat.mod_lt _ (by norm_num)⟩)
  have h98 : ∑ p : Fin 12544, G p = ∑ s : Fin 98, ∑ l : Fin 128, G ⟨s.val * 128 + l.val, Cert.Lib.SumRuns.run_lt s l⟩ :=
    Cert.Lib.SumRuns.sum_runs 98 128 G
  have h112 : ∑ p : Fin 12544, G p = ∑ h : Fin 112, ∑ w : Fin 112, G ⟨h.val * 112 + w.val, Cert.Lib.SumRuns.run_lt h w⟩ :=
    Cert.Lib.SumRuns.sum_runs 112 112 G
  have hl : ∑ l : Fin 128, ∑ s ∈ Finset.range 98, Pool.rowAt (V1 m) c n.val ch.val (128 * s + l.val)
      = ∑ l : Fin 128, ∑ s : Fin 98, G ⟨s.val * 128 + l.val, Cert.Lib.SumRuns.run_lt s l⟩ :=
    Finset.sum_congr rfl fun l _ => by
      rw [Finset.sum_range]
      refine Finset.sum_congr rfl fun s _ => ?_
      have hs : s.val < 98 := s.isLt
      have hl' : l.val < 128 := l.isLt
      rw [rowAt_eq m c n ch (128 * s.val + l.val) (by omega)]
      refine congrArg (xin m c) (funext fun a => Fin.ext ?_)
      match a with
      | ⟨0, _⟩ => rfl
      | ⟨1, _⟩ => rfl
      | ⟨2, _⟩ => show (128 * s.val + l.val) / 112 = (s.val * 128 + l.val) / 112; omega
      | ⟨3, _⟩ => show (128 * s.val + l.val) % 112 = (s.val * 128 + l.val) % 112; omega
  have hr : ∑ h : Fin 112, ∑ w : Fin 112, G ⟨h.val * 112 + w.val, Cert.Lib.SumRuns.run_lt h w⟩
      = ∑ h : Fin 112, ∑ w : Fin 112, xin m c (ix4 n ch h w) :=
    Finset.sum_congr rfl fun (h : Fin 112) _ => Finset.sum_congr rfl fun (w : Fin 112) _ => by
      have hh : h.val < 112 := h.isLt
      have hw : w.val < 112 := w.isLt
      refine congrArg (xin m c) (funext fun a => Fin.ext ?_)
      match a with
      | ⟨0, _⟩ => rfl
      | ⟨1, _⟩ => rfl
      | ⟨2, _⟩ => show (h.val * 112 + w.val) / 112 = h.val; omega
      | ⟨3, _⟩ => show (h.val * 112 + w.val) % 112 = w.val; omega
  rw [hl, Finset.sum_comm, ← h98, h112, hr, Finset.sum_comm]
  rfl

/-- The pooled means, as the spatial sum times the mean factor. -/
theorem theta_eq (c : Dev nD) (n : Fin 16) (ch : Fin 256) :
    Pool.thetaArr (V1 m) c (ix2 n ch) = Spec.pooled (m ((c : Thread nD τ).loc main_arg0)) n ch * Spec.meanFactor := by
  unfold Pool.thetaArr
  exact congrArg (fun z : EReal => z * Spec.meanFactor) (pooled_eq m c n ch)

/-- What the dense region finds in its windows' arrays. -/
theorem V2_main_v1 (c : Dev nD) : (V2 m c main_v1 : S16x256.Idx → EReal) = Pool.thetaArr (V1 m) c :=
  (W2_arr m c 1).trans (Pool.final (V1 m) c)
theorem V2_main_arg1 (c : Dev nD) : V2 m c main_arg1 = m ((c : Thread nD τ).loc main_arg1) :=
  (W2_of_ne m c main_arg1 (by decide)).trans (W1_of_ne m c main_arg1 (by decide))
theorem V2_main_arg2 (c : Dev nD) : V2 m c main_arg2 = m ((c : Thread nD τ).loc main_arg2) :=
  (W2_of_ne m c main_arg2 (by decide)).trans (W1_of_ne m c main_arg2 (by decide))
theorem V2_main_arg3 (c : Dev nD) : V2 m c main_arg3 = m ((c : Thread nD τ).loc main_arg3) :=
  (W2_of_ne m c main_arg3 (by decide)).trans (W1_of_ne m c main_arg3 (by decide))
theorem V2_main_arg4 (c : Dev nD) : V2 m c main_arg4 = m ((c : Thread nD τ).loc main_arg4) :=
  (W2_of_ne m c main_arg4 (by decide)).trans (W1_of_ne m c main_arg4 (by decide))

/-- A finite sum of real numbers is a real number. -/
theorem real_sum {ι : Type*} (t : Finset ι) (f : ι → EReal) (hf : ∀ k, ∃ r : ℝ, f k = (r : EReal)) : ∃ r : ℝ, ∑ k ∈ t, f k = (r : EReal) := by
  choose f' hf' using hf
  exact ⟨∑ k ∈ t, f' k, by simp only [hf']; exact Cert.Lib.ScaleAcrossSum.coe_sum t f'⟩

/-- The mean factor is a real number. -/
theorem meanFactor_real : ∃ r : ℝ, Spec.meanFactor = (r : EReal) := by
  show ∃ r : ℝ, Ideal.ieee 8 23 (0x38A72F05#32 : BitVec 32) = (r : EReal)
  unfold Ideal.ieee
  simp only []
  rw [if_neg (by decide), if_neg (by decide)]
  exact ⟨_, rfl⟩

/-- THE REFERENCE'S RESULT ARRAY is the specification of the arguments, for real inputs. -/
theorem result_eq (c : Dev nD)
    (hx : ∀ i, ∃ r : ℝ, m ((c : Thread nD τ).loc main_arg0) i = (r : EReal))
    (hw : ∀ i, ∃ r : ℝ, m ((c : Thread nD τ).loc main_arg1) i = (r : EReal)) :
    (Dense.dat (V2 m) c).arrAt 5 cfg1.N
      = Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [Dense.final]
  funext j
  obtain ⟨n, o, rfl⟩ : ∃ (n : Fin 16) (o : Fin 8), j = ix2 n o := ⟨j 0, j 1, eq_ix2 j⟩
  unfold Dense.denseArr
  rw [Dense.pay_at]
  rw [show (V2 m c main_v1 : S16x256.Idx → EReal) = Pool.thetaArr (V1 m) c from V2_main_v1 m c]
  rw [V2_main_arg1, V2_main_arg2, V2_main_arg3, V2_main_arg4]
  unfold Spec.G
  refine congrArg (fun pre => Spec.head pre _ _ o) (funext fun k => ?_)
  unfold Spec.hidden
  refine congrArg (fun z : EReal => z + m ((c : Thread nD τ).loc main_arg2) (ix2 (0 : Fin 1) k)) ?_
  -- the mean factor moves across the contraction: every pooled sum and every weight is real
  choose w' hw' using hw
  have hp : ∀ ch : Fin 256, ∃ r : ℝ, Spec.pooled (m ((c : Thread nD τ).loc main_arg0)) n ch = (r : EReal) := fun ch => by
    unfold Spec.pooled
    exact real_sum _ _ fun w => real_sum _ _ fun h => hx _
  have key := Cert.Lib.ScaleAcrossSum.sum_mul_scale (fun ch : Fin 256 => Spec.pooled (m ((c : Thread nD τ).loc main_arg0)) n ch)
    (fun ch : Fin 256 => w' (ix2 ch k)) Spec.meanFactor hp meanFactor_real
  simp only [← hw'] at key
  rw [key]
  refine Finset.sum_congr rfl fun ch _ => ?_
  rw [theta_eq]
  show _ * Spec.meanFactor * _ = _ * (_ * Spec.meanFactor)
  rw [mul_assoc, mul_comm Spec.meanFactor]

end Cert.ReferenceIdeal.RValue

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.Finite.lean ====
/-
  The precondition read back: when the printed test "every |element| compares below +inf, for all five arrays" is all
  ones at the ideal instance, every element of every input array is a real number.
-/
import proofs.«161419_g2000504122983038_pallasbulk_1167_5_alg».proof.Proof.Gen.Pre_finite_inputs
import proofs.«161419_g2000504122983038_pallasbulk_1167_5_alg».proof.Proof.LibFiniteEReal
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- One array's test: if the reduction by "and" of the comparisons |x| < +inf is one, every element is real. -/
theorem real_of_all {s : Shape} (x : FVec Ideal s .f32) (hb : S_.BroadcastsInDim s (![] : Fin 0 → Fin s.rank))
    (hr : s.ReducesTo (List.finRange s.rank) S_ ∨ True) (axes : List (Fin s.rank)) (h : s.ReducesTo axes S_) (hu : 0 < S_.numel)
    (e : Host.reduce IntOp.andi (cmpf .olt (Host.absf x) (broadcastInDim s ![] hb (constant (F := Ideal) S_ .f32 0x7F800000#32)))
        (constantI S_ 1 1#1) h hu ix0 = 1#1) (i : s.Idx) : ∃ r : ℝ, x i = (r : EReal) :=
  Cert.Lib.FiniteEReal.real_of_abs_lt (x i)
    (Host.reduce_andi_all (cmpf .olt (Host.absf x) (broadcastInDim s ![] hb (constant (F := Ideal) S_ .f32 0x7F800000#32)))
      (constantI S_ 1 1#1) h hu ix0 e i)

/-- THE PRECONDITION, READ BACK. -/
theorem reals_of_pre (x : FVec Ideal S16x256x112x112 .f32) (w1 : FVec Ideal S256x16 .f32) (b1 : FVec Ideal S1x16 .f32)
    (w2 : FVec Ideal S16x8 .f32) (b2 : FVec Ideal S1x8 .f32)
    (h : fn (F := Ideal) x w1 b1 w2 b2 = fun _ => 1#1) :
    (∀ i, ∃ r : ℝ, x i = (r : EReal)) ∧ (∀ i, ∃ r : ℝ, w1 i = (r : EReal)) ∧ (∀ i, ∃ r : ℝ, b1 i = (r : EReal))
      ∧ (∀ i, ∃ r : ℝ, w2 i = (r : EReal)) ∧ (∀ i, ∃ r : ℝ, b2 i = (r : EReal)) := by
  have h0 := congrFun h ix0
  unfold fn fn_part1 at h0
  dsimp only at h0
  unfold andi at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  exact ⟨real_of_all x _ (.inr trivial) _ _ _ h1, real_of_all w1 _ (.inr trivial) _ _ _ h2, real_of_all b1 _ (.inr trivial) _ _ _ h3,
    real_of_all w2 _ (.inr trivial) _ _ _ h4, real_of_all b2 _ (.inr trivial) _ _ _ h5⟩

end Cert.Finite

end
-- ==== Proof.lean ====
/-
  A fused kernel against a two-kernel reference, equal over the extended reals for real inputs.

  Both programs take x [16, 256, 112, 112], w1 [256, 16], b1 [1, 16], w2 [16, 8], b2 [1, 8] and return [16, 8]:
  at (n, o),  2 · logistic(∑ₖ max(hₙₖ, 0) · w2[k, o] + b2[o]) − 1,  where hₙₖ is the hidden pre-activation.

  * The kernel sums x over its 112 x 112 spatial positions per (n, c), contracts the 256 sums with w1, multiplies by the
    mean factor (the 32-bit word of 1/12544) and adds b1:  hₙₖ = (∑_c Sₙc · w1[c, k]) · μ + b1[k].
  * The reference first pools: it views x as [16, 256, 12544], walks each row in four blocks of 4096 positions (the last
    holding 256), keeps 128 running lane sums over the chunks of 128 positions, and at the last block sums the 128 lanes
    and multiplies by the same μ. Its second kernel contracts those means with w1 and adds b1:
    hₙₖ = ∑_c (Sₙc · μ) · w1[c, k] + b1[k].

  Two facts join them. The lane-and-chunk sum runs once over the row's 12544 positions, as the spatial sum does: a
  regrouping of one finite sum, true of any extended reals. And μ moves across the contraction,
  (∑_c Sₙc · w1[c, k]) · μ = ∑_c (Sₙc · μ) · w1[c, k], which is true of real numbers and not of infinities: here the
  precondition (every input finite) is used, and only here. After hₙₖ the two programs apply the same operations to the
  same operands. The kernel's idealization rewrites nothing, so the preservation claim is empty.
-/
import proofs.«161419_g2000504122983038_pallasbulk_1167_5_alg».proof.Defs
import proofs.«161419_g2000504122983038_pallasbulk_1167_5_alg».proof.Proof.Gen.Kernel
import proofs.«161419_g2000504122983038_pallasbulk_1167_5_alg».proof.Proof.Gen.Kernel.Frame
import proofs.«161419_g2000504122983038_pallasbulk_1167_5_alg».proof.Proof.Gen.KernelIdeal
import proofs.«161419_g2000504122983038_pallasbulk_1167_5_alg».proof.Proof.Gen.KernelIdeal.Frame
import proofs.«161419_g2000504122983038_pallasbulk_1167_5_alg».proof.Proof.Gen.ReferenceIdeal
import proofs.«161419_g2000504122983038_pallasbulk_1167_5_alg».proof.Proof.Gen.Pre_finite_inputs
import proofs.«161419_g2000504122983038_pallasbulk_1167_5_alg».proof.Proof.KernelValue
import proofs.«161419_g2000504122983038_pallasbulk_1167_5_alg».proof.Proof.RefValue
import proofs.«161419_g2000504122983038_pallasbulk_1167_5_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Run.run_result (F := Ideal) m ρ)

/-- The idealization rewrote no operation. -/
theorem preserves : Cert.preserves_Kernel_KernelIdeal := trivial

/-- Both idealized programs end at the specification of the arguments: the kernel always, the reference because the
    precondition makes every input a real number. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun r h c => ⟨(h c).1.trans ?_, (h c).2⟩)
    (Cert.ReferenceIdeal.Run.run_result (F := Ideal) m' ρ')
  obtain ⟨a0, a1, a2, a3, a4⟩ := hagree c
  obtain ⟨hx, hw1, -, -, -⟩ := Cert.Finite.reals_of_pre _ _ _ _ _ (hpre c)
  rw [Cert.ReferenceIdeal.RValue.result_eq m' c (by rw [a0]; exact hx) (by rw [a1]; exact hw1), a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
